-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x10 : Shape := ⟨2, ![200000, 10]⟩
abbrev S50000x8 : Shape := ⟨2, ![50000, 8]⟩
abbrev S100000x10 : Shape := ⟨2, ![100000, 10]⟩
abbrev S400000 : Shape := ⟨1, ![400000]⟩
abbrev S4000000 : Shape := ⟨1, ![4000000]⟩
abbrev S10x16 : Shape := ⟨2, ![10, 16]⟩
abbrev S16 : Shape := ⟨1, ![16]⟩
abbrev S8x16 : Shape := ⟨2, ![8, 16]⟩
abbrev S48x64 : Shape := ⟨2, ![48, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S200000x10 : S_.BroadcastsInDim S200000x10 (![] : Fin 0 → Fin S200000x10.rank)
  reducesTo_S200000x10_S_d0_1 : S200000x10.ReducesTo [0, 1] S_
  h_S_ : 0 < S_.numel
  bcast_S_S50000x8 : S_.BroadcastsInDim S50000x8 (![] : Fin 0 → Fin S50000x8.rank)
  reducesTo_S50000x8_S_d0_1 : S50000x8.ReducesTo [0, 1] S_
  bcast_S_S100000x10 : S_.BroadcastsInDim S100000x10 (![] : Fin 0 → Fin S100000x10.rank)
  reducesTo_S100000x10_S_d0_1 : S100000x10.ReducesTo [0, 1] S_
  bcast_S_S10x16 : S_.BroadcastsInDim S10x16 (![] : Fin 0 → Fin S10x16.rank)
  reducesTo_S10x16_S_d0_1 : S10x16.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S48x64 : S_.BroadcastsInDim S48x64 (![] : Fin 0 → Fin S48x64.rank)
  reducesTo_S48x64_S_d0_1 : S48x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg18 : FVec F S1 .f32) (main_v63 : IVec S_ 1) (main_v67 : IVec S_ 1) : IVec S_ 1 :=
  let main_v68 : IVec S_ 1 := andi main_v63 main_v67
  let main_v69 : FVec F S1 .f32 := Host.absf main_arg18
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg15 : FVec F S64x64 .f32) (main_arg16 : FVec F S64 .f32) (main_arg17 : FVec F S64x1 .f32) (main_arg18 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg15
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg17
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg18 main_v63 main_v67

def fn_part2 {F : FTy → Type} [FloatOps F] (main_arg11 : FVec F S10x16 .f32) (main_arg12 : FVec F S16 .f32) (main_arg13 : FVec F S48x64 .f32) (main_arg14 : FVec F S64 .f32) (main_arg15 : FVec F S64x64 .f32) (main_arg16 : FVec F S64 .f32) (main_arg17 : FVec F S64x1 .f32) (main_arg18 : FVec F S1 .f32) (main_v33 : IVec S_ 1) : IVec S_ 1 :=
  let main_v34 : FVec F S10x16 .f32 := Host.absf main_arg11
  let main_cst_12 : FVec F S_ .f32 := constant S_ .f32 0x7F800000#32
  let main_v35 : FVec F S10x16 .f32 := broadcastInDim S10x16 ![] bcast_S_S10x16 main_cst_12
  let main_v36 : IVec S10x16 1 := cmpf .olt main_v34 main_v35
  let main_c_13 : IVec S_ 1 := constantI S_ 1 1#1
  let main_v37 : IVec S_ 1 := (fun x v => Host.reduce IntOp.andi x v reducesTo_S10x16_S_d0_1 h_S_) main_v36 main_c_13
  let main_v38 : IVec S_ 1 := andi main_v33 main_v37
  let main_v39 : FVec F S16 .f32 := Host.absf main_arg12
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S48x64 .f32 := Host.absf main_arg13
  let main_cst_16 : FVec F S_ .f32 := constant S_ .f32 0x7F800000#32
  let main_v45 : FVec F S48x64 .f32 := broadcastInDim S48x64 ![] bcast_S_S48x64 main_cst_16
  let main_v46 : IVec S48x64 1 := cmpf .olt main_v44 main_v45
  let main_c_17 : IVec S_ 1 := constantI S_ 1 1#1
  let main_v47 : IVec S_ 1 := (fun x v => Host.reduce IntOp.andi x v reducesTo_S48x64_S_d0_1 h_S_) main_v46 main_c_17
  let main_v48 : IVec S_ 1 := andi main_v43 main_v47
  let main_v49 : FVec F S64 .f32 := Host.absf main_arg14
  let main_cst_18 : FVec F S_ .f32 := constant S_ .f32 0x7F800000#32
  let main_v50 : FVec F S64 .f32 := broadcastInDim S64 ![] bcast_S_S64 main_cst_18
  fn_part3 (F := F) main_arg15 main_arg16 main_arg17 main_arg18 main_v48 main_v49 main_v50

def fn_part1 {F : FTy → Type} [FloatOps F] (main_arg8 : FVec F S16 .f32) (main_arg9 : FVec F S8x16 .f32) (main_arg10 : FVec F S16 .f32) (main_arg11 : FVec F S10x16 .f32) (main_arg12 : FVec F S16 .f32) (main_arg13 : FVec F S48x64 .f32) (main_arg14 : FVec F S64 .f32) (main_arg15 : FVec F S64x64 .f32) (main_arg16 : FVec F S64 .f32) (main_arg17 : FVec F S64x1 .f32) (main_arg18 : FVec F S1 .f32) (main_v13 : IVec S_ 1) (main_v16 : IVec S10x16 1) : IVec S_ 1 :=
  let main_c_5 : IVec S_ 1 := constantI S_ 1 1#1
  let main_v17 : IVec S_ 1 := (fun x v => Host.reduce IntOp.andi x v reducesTo_S10x16_S_d0_1 h_S_) main_v16 main_c_5
  let main_v18 : IVec S_ 1 := andi main_v13 main_v17
  let main_v19 : FVec F S16 .f32 := Host.absf main_arg8
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S8x16 .f32 := Host.absf main_arg9
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S16 .f32 := Host.absf main_arg10
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg11 main_arg12 main_arg13 main_arg14 main_arg15 main_arg16 main_arg17 main_arg18 main_v33

def fn {F : FTy → Type} [FloatOps F] (main_arg0 : FVec F S200000x10 .f32) (main_arg1 : FVec F S50000x8 .f32) (main_arg2 : FVec F S100000x10 .f32) (main_arg3 : IVec S400000 32) (main_arg4 : IVec S400000 32) (main_arg5 : IVec S4000000 32) (main_arg6 : IVec S4000000 32) (main_arg7 : FVec F S10x16 .f32) (main_arg8 : FVec F S16 .f32) (main_arg9 : FVec F S8x16 .f32) (main_arg10 : FVec F S16 .f32) (main_arg11 : FVec F S10x16 .f32) (main_arg12 : FVec F S16 .f32) (main_arg13 : FVec F S48x64 .f32) (main_arg14 : FVec F S64 .f32) (main_arg15 : FVec F S64x64 .f32) (main_arg16 : FVec F S64 .f32) (main_arg17 : FVec F S64x1 .f32) (main_arg18 : FVec F S1 .f32) : IVec S_ 1 :=
  let main_v0 : FVec F S200000x10 .f32 := Host.absf main_arg0
  let main_cst : FVec F S_ .f32 := constant S_ .f32 0x7F800000#32
  let main_v1 : FVec F S200000x10 .f32 := broadcastInDim S200000x10 ![] bcast_S_S200000x10 main_cst
  let main_v2 : IVec S200000x10 1 := cmpf .olt main_v0 main_v1
  let main_c : IVec S_ 1 := constantI S_ 1 1#1
  let main_v3 : IVec S_ 1 := (fun x v => Host.reduce IntOp.andi x v reducesTo_S200000x10_S_d0_1 h_S_) main_v2 main_c
  let main_v4 : FVec F S50000x8 .f32 := Host.absf main_arg1
  let main_cst_0 : FVec F S_ .f32 := constant S_ .f32 0x7F800000#32
  let main_v5 : FVec F S50000x8 .f32 := broadcastInDim S50000x8 ![] bcast_S_S50000x8 main_cst_0
  let main_v6 : IVec S50000x8 1 := cmpf .olt main_v4 main_v5
  let main_c_1 : IVec S_ 1 := constantI S_ 1 1#1
  let main_v7 : IVec S_ 1 := (fun x v => Host.reduce IntOp.andi x v reducesTo_S50000x8_S_d0_1 h_S_) main_v6 main_c_1
  let main_v8 : IVec S_ 1 := andi main_v3 main_v7
  let main_v9 : FVec F S100000x10 .f32 := Host.absf main_arg2
  let main_cst_2 : FVec F S_ .f32 := constant S_ .f32 0x7F800000#32
  let main_v10 : FVec F S100000x10 .f32 := broadcastInDim S100000x10 ![] bcast_S_S100000x10 main_cst_2
  let main_v11 : IVec S100000x10 1 := cmpf .olt main_v9 main_v10
  let main_c_3 : IVec S_ 1 := constantI S_ 1 1#1
  let main_v12 : IVec S_ 1 := (fun x v => Host.reduce IntOp.andi x v reducesTo_S100000x10_S_d0_1 h_S_) main_v11 main_c_3
  let main_v13 : IVec S_ 1 := andi main_v8 main_v12
  let main_v14 : FVec F S10x16 .f32 := Host.absf main_arg7
  let main_cst_4 : FVec F S_ .f32 := constant S_ .f32 0x7F800000#32
  let main_v15 : FVec F S10x16 .f32 := broadcastInDim S10x16 ![] bcast_S_S10x16 main_cst_4
  let main_v16 : IVec S10x16 1 := cmpf .olt main_v14 main_v15
  fn_part1 (F := F) main_arg8 main_arg9 main_arg10 main_arg11 main_arg12 main_arg13 main_arg14 main_arg15 main_arg16 main_arg17 main_arg18 main_v13 main_v16
-- ==== Kernel.lean ====
abbrev S200000x10 : Shape := ⟨2, ![200000, 10]⟩
abbrev S50000x8 : Shape := ⟨2, ![50000, 8]⟩
abbrev S100000x10 : Shape := ⟨2, ![100000, 10]⟩
abbrev S400000 : Shape := ⟨1, ![400000]⟩
abbrev S4000000 : Shape := ⟨1, ![4000000]⟩
abbrev S10x16 : Shape := ⟨2, ![10, 16]⟩
abbrev S16 : Shape := ⟨1, ![16]⟩
abbrev S8x16 : Shape := ⟨2, ![8, 16]⟩
abbrev S48x64 : Shape := ⟨2, ![48, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x16 : Shape := ⟨2, ![1, 16]⟩
abbrev S100000x16 : Shape := ⟨2, ![100000, 16]⟩
abbrev S10000x10 : Shape := ⟨2, ![10000, 10]⟩
abbrev S10000x16 : Shape := ⟨2, ![10000, 16]⟩
abbrev S_ : Shape := ⟨0, ![]⟩
abbrev S400000x1 : Shape := ⟨2, ![400000, 1]⟩
abbrev S400000x16 : Shape := ⟨2, ![400000, 16]⟩
abbrev S50000x16 : Shape := ⟨2, ![50000, 16]⟩
abbrev S50000x1 : Shape := ⟨2, ![50000, 1]⟩
abbrev S50000x32 : Shape := ⟨2, ![50000, 32]⟩
abbrev S5000x8 : Shape := ⟨2, ![5000, 8]⟩
abbrev S5000x16 : Shape := ⟨2, ![5000, 16]⟩
abbrev S5000x32 : Shape := ⟨2, ![5000, 32]⟩
abbrev S4000000x1 : Shape := ⟨2, ![4000000, 1]⟩
abbrev S4000000x32 : Shape := ⟨2, ![4000000, 32]⟩
abbrev S200000x32 : Shape := ⟨2, ![200000, 32]⟩
abbrev S200000x1 : Shape := ⟨2, ![200000, 1]⟩
abbrev S1x64 : Shape := ⟨2, ![1, 64]⟩
abbrev S1x1 : Shape := ⟨2, ![1, 1]⟩
abbrev S5000x10 : Shape := ⟨2, ![5000, 10]⟩
abbrev S5000x1 : Shape := ⟨2, ![5000, 1]⟩
abbrev S5000x48 : Shape := ⟨2, ![5000, 48]⟩
abbrev S5000x64 : Shape := ⟨2, ![5000, 64]⟩

abbrev nBuf : Space → Nat
  | .hbm => 76
  | .vmem => 28
  | .smem => 0
  | _ => 0

abbrev bufTy : (tb : Table) → Fin (tcTables nBuf tb) → BufTy
  | .hbm, ⟨0, _⟩ => ⟨S200000x10, .f32⟩
  | .hbm, ⟨1, _⟩ => ⟨S50000x8, .f32⟩
  | .hbm, ⟨2, _⟩ => ⟨S100000x10, .f32⟩
  | .hbm, ⟨3, _⟩ => ⟨S400000, .i32⟩
  | .hbm, ⟨4, _⟩ => ⟨S400000, .i32⟩
  | .hbm, ⟨5, _⟩ => ⟨S4000000, .i32⟩
  | .hbm, ⟨6, _⟩ => ⟨S4000000, .i32⟩
  | .hbm, ⟨7, _⟩ => ⟨S10x16, .f32⟩
  | .hbm, ⟨8, _⟩ => ⟨S16, .f32⟩
  | .hbm, ⟨9, _⟩ => ⟨S8x16, .f32⟩
  | .hbm, ⟨10, _⟩ => ⟨S16, .f32⟩
  | .hbm, ⟨11, _⟩ => ⟨S10x16, .f32⟩
  | .hbm, ⟨12, _⟩ => ⟨S16, .f32⟩
  | .hbm, ⟨13, _⟩ => ⟨S48x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x1, .f32⟩
  | .hbm, ⟨18, _⟩ => ⟨S1, .f32⟩
  | .hbm, ⟨19, _⟩ => ⟨S1x16, .f32⟩
  | .hbm, ⟨20, _⟩ => ⟨S100000x16, .f32⟩
  | .hbm, ⟨21, _⟩ => ⟨S_, .i32⟩
  | .hbm, ⟨22, _⟩ => ⟨S400000, .i32⟩
  | .hbm, ⟨23, _⟩ => ⟨S400000, .i1⟩
  | .hbm, ⟨24, _⟩ => ⟨S_, .i32⟩
  | .hbm, ⟨25, _⟩ => ⟨S400000, .i32⟩
  | .hbm, ⟨26, _⟩ => ⟨S400000, .i32⟩
  | .hbm, ⟨27, _⟩ => ⟨S400000, .i32⟩
  | .hbm, ⟨28, _⟩ => ⟨S400000x1, .i32⟩
  | .hbm, ⟨29, _⟩ => ⟨S400000x16, .f32⟩
  | .hbm, ⟨30, _⟩ => ⟨S_, .f32⟩
  | .hbm, ⟨31, _⟩ => ⟨S50000x16, .f32⟩
  | .hbm, ⟨32, _⟩ => ⟨S400000x1, .i32⟩
  | .hbm, ⟨33, _⟩ => ⟨S50000x16, .f32⟩
  | .hbm, ⟨34, _⟩ => ⟨S_, .f32⟩
  | .hbm, ⟨35, _⟩ => ⟨S400000x1, .f32⟩
  | .hbm, ⟨36, _⟩ => ⟨S_, .f32⟩
  | .hbm, ⟨37, _⟩ => ⟨S50000x1, .f32⟩
  | .hbm, ⟨38, _⟩ => ⟨S400000x1, .i32⟩
  | .hbm, ⟨39, _⟩ => ⟨S50000x1, .f32⟩
  | .hbm, ⟨40, _⟩ => ⟨S_, .f32⟩
  | .hbm, ⟨41, _⟩ => ⟨S50000x1, .f32⟩
  | .hbm, ⟨42, _⟩ => ⟨S50000x1, .f32⟩
  | .hbm, ⟨43, _⟩ => ⟨S50000x16, .f32⟩
  | .hbm, ⟨44, _⟩ => ⟨S50000x16, .f32⟩
  | .hbm, ⟨45, _⟩ => ⟨S1x16, .f32⟩
  | .hbm, ⟨46, _⟩ => ⟨S50000x32, .f32⟩
  | .hbm, ⟨47, _⟩ => ⟨S_, .i32⟩
  | .hbm, ⟨48, _⟩ => ⟨S4000000, .i32⟩
  | .hbm, ⟨49, _⟩ => ⟨S4000000, .i1⟩
  | .hbm, ⟨50, _⟩ => ⟨S_, .i32⟩
  | .hbm, ⟨51, _⟩ => ⟨S4000000, .i32⟩
  | .hbm, ⟨52, _⟩ => ⟨S4000000, .i32⟩
  | .hbm, ⟨53, _⟩ => ⟨S4000000, .i32⟩
  | .hbm, ⟨54, _⟩ => ⟨S4000000x1, .i32⟩
  | .hbm, ⟨55, _⟩ => ⟨S4000000x32, .f32⟩
  | .hbm, ⟨56, _⟩ => ⟨S_, .f32⟩
  | .hbm, ⟨57, _⟩ => ⟨S200000x32, .f32⟩
  | .hbm, ⟨58, _⟩ => ⟨S4000000x1, .i32⟩
  | .hbm, ⟨59, _⟩ => ⟨S200000x32, .f32⟩
  | .hbm, ⟨60, _⟩ => ⟨S_, .f32⟩
  | .hbm, ⟨61, _⟩ => ⟨S4000000x1, .f32⟩
  | .hbm, ⟨62, _⟩ => ⟨S_, .f32⟩
  | .hbm, ⟨63, _⟩ => ⟨S200000x1, .f32⟩
  | .hbm, ⟨64, _⟩ => ⟨S4000000x1, .i32⟩
  | .hbm, ⟨65, _⟩ => ⟨S200000x1, .f32⟩
  | .hbm, ⟨66, _⟩ => ⟨S_, .f32⟩
  | .hbm, ⟨67, _⟩ => ⟨S200000x1, .f32⟩
  | .hbm, ⟨68, _⟩ => ⟨S200000x1, .f32⟩
  | .hbm, ⟨69, _⟩ => ⟨S200000x32, .f32⟩
  | .hbm, ⟨70, _⟩ => ⟨S200000x32, .f32⟩
  | .hbm, ⟨71, _⟩ => ⟨S1x16, .f32⟩
  | .hbm, ⟨72, _⟩ => ⟨S1x64, .f32⟩
  | .hbm, ⟨73, _⟩ => ⟨S1x64, .f32⟩
  | .hbm, ⟨74, _⟩ => ⟨S1x1, .f32⟩
  | .hbm, ⟨75, _⟩ => ⟨S200000x1, .f32⟩
  | .local _ .vmem, ⟨0, _⟩ => ⟨S10000x10, .f32⟩
  | .local _ .vmem, ⟨1, _⟩ => ⟨S10000x10, .f32⟩
  | .local _ .vmem, ⟨2, _⟩ => ⟨S10x16, .f32⟩
  | .local _ .vmem, ⟨3, _⟩ => ⟨S1x16, .f32⟩
  | .local _ .vmem, ⟨4, _⟩ => ⟨S10000x16, .f32⟩
  | .local _ .vmem, ⟨5, _⟩ => ⟨S10000x16, .f32⟩
  | .local _ .vmem, ⟨6, _⟩ => ⟨S5000x8, .f32⟩
  | .local _ .vmem, ⟨7, _⟩ => ⟨S5000x8, .f32⟩
  | .local _ .vmem, ⟨8, _⟩ => ⟨S5000x16, .f32⟩
  | .local _ .vmem, ⟨9, _⟩ => ⟨S5000x16, .f32⟩
  | .local _ .vmem, ⟨10, _⟩ => ⟨S8x16, .f32⟩
  | .local _ .vmem, ⟨11, _⟩ => ⟨S1x16, .f32⟩
  | .local _ .vmem, ⟨12, _⟩ => ⟨S5000x32, .f32⟩
  | .local _ .vmem, ⟨13, _⟩ => ⟨S5000x32, .f32⟩
  | .local _ .vmem, ⟨14, _⟩ => ⟨S5000x10, .f32⟩
  | .local _ .vmem, ⟨15, _⟩ => ⟨S5000x10, .f32⟩
  | .local _ .vmem, ⟨16, _⟩ => ⟨S5000x32, .f32⟩
  | .local _ .vmem, ⟨17, _⟩ => ⟨S5000x32, .f32⟩
  | .local _ .vmem, ⟨18, _⟩ => ⟨S10x16, .f32⟩
  | .local _ .vmem, ⟨19, _⟩ => ⟨S1x16, .f32⟩
  | .local _ .vmem, ⟨20, _⟩ => ⟨S48x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S64x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S200000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_cst_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_9 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg10_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem10_0 : DmaSem sig := 26
abbrev cc2_sem10_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S48x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  shapeCasts_S16_S1x16 : S16.ShapeCasts S1x16
  inb_S10000x10_S10000x10_0_0 : ∀ a, (![0, 0] : Fin 2 → Nat) a + S10000x10.size a ≤ S10000x10.size a
  h_S10000x10 : 0 < S10000x10.numel
  bitsLt_bf16_f32 : FTy.bits .bf16 < FTy.bits .f32
  inb_S10x16_S10x16_0_0 : ∀ a, (![0, 0] : Fin 2 → Nat) a + S10x16.size a ≤ S10x16.size a
  h_S10x16 : 0 < S10x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S400000 : S_.BroadcastsInDim S400000 (![] : Fin 0 → Fin S400000.rank)
  bcast_S400000_S400000x1_0 : S400000.BroadcastsInDim S400000x1 (![0] : Fin 1 → Fin S400000x1.rank)
  bcast_S_S50000x16 : S_.BroadcastsInDim S50000x16 (![] : Fin 0 → Fin S50000x16.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x16_0_1 : S50000x1.BroadcastsInDim S50000x16 (![0, 1] : Fin 2 → Fin S50000x16.rank)
  inb_S5000x8_S5000x8_0_0 : ∀ a, (![0, 0] : Fin 2 → Nat) a + S5000x8.size a ≤ S5000x8.size a
  h_S5000x8 : 0 < S5000x8.numel
  inb_S8x16_S8x16_0_0 : ∀ a, (![0, 0] : Fin 2 → Nat) a + S8x16.size a ≤ S8x16.size a
  h_S8x16 : 0 < S8x16.numel
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  concatenates_S5000x16_S5000x16_S5000x32_d1 : Shape.Concatenates [S5000x16, S5000x16] S5000x32 1
  inb_S5000x32_S5000x32_0_0 : ∀ a, (![0, 0] : Fin 2 → Nat) a + S5000x32.size a ≤ S5000x32.size a
  h_S5000x32 : 0 < S5000x32.numel
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S200000x32 : S_.BroadcastsInDim S200000x32 (![] : Fin 0 → Fin S200000x32.rank)
  bcast_S_S4000000x1 : S_.BroadcastsInDim S4000000x1 (![] : Fin 0 → Fin S4000000x1.rank)
  bcast_S_S200000x1 : S_.BroadcastsInDim S200000x1 (![] : Fin 0 → Fin S200000x1.rank)
  bcast_S200000x1_S200000x32_0_1 : S200000x1.BroadcastsInDim S200000x32 (![0, 1] : Fin 2 → Fin S200000x32.rank)
  shapeCasts_S64_S1x64 : S64.ShapeCasts S1x64
  shapeCasts_S1_S1x1 : S1.ShapeCasts S1x1
  inb_S5000x10_S5000x10_0_0 : ∀ a, (![0, 0] : Fin 2 → Nat) a + S5000x10.size a ≤ S5000x10.size a
  h_S5000x10 : 0 < S5000x10.numel
  shapeCasts_S5000x32_S5000x32 : S5000x32.ShapeCasts S5000x32
  concatenates_S5000x16_S5000x32_S5000x48_d1 : Shape.Concatenates [S5000x16, S5000x32] S5000x48 1
  inb_S48x64_S48x64_0_0 : ∀ a, (![0, 0] : Fin 2 → Nat) a + S48x64.size a ≤ S48x64.size a
  h_S48x64 : 0 < S48x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S10000x10_S10x16_S10000x16_1_0_0_1_n_n_wf : DotDims.WF S10000x10 S10x16 S10000x16 [1] [0] [0] [1] [] []
  gather_S100000x16_S400000x1_S400000x16_1_0_n_n_0_1_116_wf : GatherDims.WF S100000x16 S400000x1 S400000x16 [1] [0] [] [0] [] 1 ![1, 16]
  scatter_S50000x16_S400000x1_S400000x16_1_0_0_1_wf : ScatterDims.WF S50000x16 S400000x1 S400000x16 [1] [0] [0] 1
  scatter_S50000x1_S400000x1_S400000x1_1_0_0_1_wf : ScatterDims.WF S50000x1 S400000x1 S400000x1 [1] [0] [0] 1
  dot_S5000x8_S8x16_S5000x16_1_0_0_1_n_n_wf : DotDims.WF S5000x8 S8x16 S5000x16 [1] [0] [0] [1] [] []
  gather_S50000x32_S4000000x1_S4000000x32_1_0_n_n_0_1_132_wf : GatherDims.WF S50000x32 S4000000x1 S4000000x32 [1] [0] [] [0] [] 1 ![1, 32]
  scatter_S200000x32_S4000000x1_S4000000x32_1_0_0_1_wf : ScatterDims.WF S200000x32 S4000000x1 S4000000x32 [1] [0] [0] 1
  scatter_S200000x1_S4000000x1_S4000000x1_1_0_0_1_wf : ScatterDims.WF S200000x1 S4000000x1 S4000000x1 [1] [0] [0] 1
  dot_S5000x10_S10x16_S5000x16_1_0_0_1_n_n_wf : DotDims.WF S5000x10 S10x16 S5000x16 [1] [0] [0] [1] [] []
  dot_S5000x48_S48x64_S5000x64_1_0_0_1_n_n_wf : DotDims.WF S5000x48 S48x64 S5000x64 [1] [0] [0] [1] [] []
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x10.size a ≤ S100000x10.size a
  hwx0_0 : ∀ i : grid0.Coords, EltTy.bits .f32 = 32 ∨ (Rect.block (s := S100000x10) S10000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x16.size a ≤ S10x16.size a
  hwx0_1 : ∀ i : grid0.Coords, EltTy.bits .f32 = 32 ∨ (Rect.block (s := S10x16) S10x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .f32 = 32 ∨ (Rect.block (s := S100000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S50000x8.size a
  hwx1_0 : ∀ i : grid1.Coords, EltTy.bits .f32 = 32 ∨ (Rect.block (s := S50000x8) S5000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S50000x16.size a
  hwx1_1 : ∀ i : grid1.Coords, EltTy.bits .f32 = 32 ∨ (Rect.block (s := S50000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x16.size a ≤ S8x16.size a
  hwx1_2 : ∀ i : grid1.Coords, EltTy.bits .f32 = 32 ∨ (Rect.block (s := S8x16) S8x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S50000x32.size a
  hwx1_4 : ∀ i : grid1.Coords, EltTy.bits .f32 = 32 ∨ (Rect.block (s := S50000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x10.size a ≤ S200000x10.size a
  hwx2_0 : ∀ i : grid2.Coords, EltTy.bits .f32 = 32 ∨ (Rect.block (s := S200000x10) S5000x10.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S200000x32.size a
  hwx2_1 : ∀ i : grid2.Coords, EltTy.bits .f32 = 32 ∨ (Rect.block (s := S200000x32) S5000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10x16.size a ≤ S10x16.size a
  hwx2_2 : ∀ i : grid2.Coords, EltTy.bits .f32 = 32 ∨ (Rect.block (s := S10x16) S10x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S48x64.size a ≤ S48x64.size a
  hwx2_4 : ∀ i : grid2.Coords, EltTy.bits .f32 = 32 ∨ (Rect.block (s := S48x64) S48x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x1.size a ≤ S64x1.size a
  hwx2_8 : ∀ i : grid2.Coords, EltTy.bits .f32 = 32 ∨ (Rect.block (s := S64x1) S64x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x1.size a ≤ S200000x1.size a
  hwx2_10 : ∀ i : grid2.Coords, EltTy.bits .f32 = 32 ∨ (Rect.block (s := S200000x1) S5000x1.size (cc2_transform_10 i) (hinb2_10 i)).WholeWords (EltTy.packing .f32)

variable [Facts₀]

def dot_S10000x10_S10x16_S10000x16_1_0_0_1_n_n : DotDims S10000x10 S10x16 S10000x16 where
  lhsContracting := [1]
  rhsContracting := [0]
  lhsNonContracting := [0]
  rhsNonContracting := [1]
  lhsBatch := []
  rhsBatch := []
  wf := dot_S10000x10_S10x16_S10000x16_1_0_0_1_n_n_wf
def gather_S100000x16_S400000x1_S400000x16_1_0_n_n_0_1_116 : GatherDims S100000x16 S400000x1 S400000x16 where
  offsetDims := [1]
  collapsedSliceDims := [0]
  operandBatchingDims := []
  startIndicesBatchingDims := []
  startIndexMap := [0]
  indexVectorDim := 1
  sliceSizes := ![1, 16]
  wf := gather_S100000x16_S400000x1_S400000x16_1_0_n_n_0_1_116_wf
def scatter_S50000x16_S400000x1_S400000x16_1_0_0_1 : ScatterDims S50000x16 S400000x1 S400000x16 where
  updateWindowDims := [1]
  insertedWindowDims := [0]
  scatterDimsToOperandDims := [0]
  indexVectorDim := 1
  wf := scatter_S50000x16_S400000x1_S400000x16_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S5000x8_S8x16_S5000x16_1_0_0_1_n_n : DotDims S5000x8 S8x16 S5000x16 where
  lhsContracting := [1]
  rhsContracting := [0]
  lhsNonContracting := [0]
  rhsNonContracting := [1]
  lhsBatch := []
  rhsBatch := []
  wf := dot_S5000x8_S8x16_S5000x16_1_0_0_1_n_n_wf
def gather_S50000x32_S4000000x1_S4000000x32_1_0_n_n_0_1_132 : GatherDims S50000x32 S4000000x1 S4000000x32 where
  offsetDims := [1]
  collapsedSliceDims := [0]
  operandBatchingDims := []
  startIndicesBatchingDims := []
  startIndexMap := [0]
  indexVectorDim := 1
  sliceSizes := ![1, 32]
  wf := gather_S50000x32_S4000000x1_S4000000x32_1_0_n_n_0_1_132_wf
def scatter_S200000x32_S4000000x1_S4000000x32_1_0_0_1 : ScatterDims S200000x32 S4000000x1 S4000000x32 where
  updateWindowDims := [1]
  insertedWindowDims := [0]
  scatterDimsToOperandDims := [0]
  indexVectorDim := 1
  wf := scatter_S200000x32_S4000000x1_S4000000x32_1_0_0_1_wf
def scatter_S200000x1_S4000000x1_S4000000x1_1_0_0_1 : ScatterDims S200000x1 S4000000x1 S4000000x1 where
  updateWindowDims := [1]
  insertedWindowDims := [0]
  scatterDimsToOperandDims := [0]
  indexVectorDim := 1
  wf := scatter_S200000x1_S4000000x1_S4000000x1_1_0_0_1_wf
def dot_S5000x10_S10x16_S5000x16_1_0_0_1_n_n : DotDims S5000x10 S10x16 S5000x16 where
  lhsContracting := [1]
  rhsContracting := [0]
  lhsNonContracting := [0]
  rhsNonContracting := [1]
  lhsBatch := []
  rhsBatch := []
  wf := dot_S5000x10_S10x16_S5000x16_1_0_0_1_n_n_wf
def dot_S5000x48_S48x64_S5000x64_1_0_0_1_n_n : DotDims S5000x48 S48x64 S5000x64 where
  lhsContracting := [1]
  rhsContracting := [0]
  lhsNonContracting := [0]
  rhsNonContracting := [1]
  lhsBatch := []
  rhsBatch := []
  wf := dot_S5000x48_S48x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg2) S10000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg11) S10x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S8x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S5000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S10x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S48x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg17) S64x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v43) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v44) S5000x1.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S200000x10 : Shape := ⟨2, ![200000, 10]⟩
abbrev S50000x8 : Shape := ⟨2, ![50000, 8]⟩
abbrev S100000x10 : Shape := ⟨2, ![100000, 10]⟩
abbrev S400000 : Shape := ⟨1, ![400000]⟩
abbrev S4000000 : Shape := ⟨1, ![4000000]⟩
abbrev S10x16 : Shape := ⟨2, ![10, 16]⟩
abbrev S16 : Shape := ⟨1, ![16]⟩
abbrev S8x16 : Shape := ⟨2, ![8, 16]⟩
abbrev S48x64 : Shape := ⟨2, ![48, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S200000x16 : Shape := ⟨2, ![200000, 16]⟩
abbrev S1x16 : Shape := ⟨2, ![1, 16]⟩
abbrev S50000x16 : Shape := ⟨2, ![50000, 16]⟩
abbrev S100000x16 : Shape := ⟨2, ![100000, 16]⟩
abbrev S_ : Shape := ⟨0, ![]⟩
abbrev S400000x1 : Shape := ⟨2, ![400000, 1]⟩
abbrev S400000x16 : Shape := ⟨2, ![400000, 16]⟩
abbrev S50000x1 : Shape := ⟨2, ![50000, 1]⟩
abbrev S50000x32 : Shape := ⟨2, ![50000, 32]⟩
abbrev S4000000x1 : Shape := ⟨2, ![4000000, 1]⟩
abbrev S4000000x32 : Shape := ⟨2, ![4000000, 32]⟩
abbrev S200000x32 : Shape := ⟨2, ![200000, 32]⟩
abbrev S200000x1 : Shape := ⟨2, ![200000, 1]⟩
abbrev S200000x48 : Shape := ⟨2, ![200000, 48]⟩
abbrev S200000x64 : Shape := ⟨2, ![200000, 64]⟩
abbrev S1x64 : Shape := ⟨2, ![1, 64]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S200000x10, .f32⟩
  | .hbm, ⟨1, _⟩ => ⟨S50000x8, .f32⟩
  | .hbm, ⟨2, _⟩ => ⟨S100000x10, .f32⟩
  | .hbm, ⟨3, _⟩ => ⟨S400000, .i32⟩
  | .hbm, ⟨4, _⟩ => ⟨S400000, .i32⟩
  | .hbm, ⟨5, _⟩ => ⟨S4000000, .i32⟩
  | .hbm, ⟨6, _⟩ => ⟨S4000000, .i32⟩
  | .hbm, ⟨7, _⟩ => ⟨S10x16, .f32⟩
  | .hbm, ⟨8, _⟩ => ⟨S16, .f32⟩
  | .hbm, ⟨9, _⟩ => ⟨S8x16, .f32⟩
  | .hbm, ⟨10, _⟩ => ⟨S16, .f32⟩
  | .hbm, ⟨11, _⟩ => ⟨S10x16, .f32⟩
  | .hbm, ⟨12, _⟩ => ⟨S16, .f32⟩
  | .hbm, ⟨13, _⟩ => ⟨S48x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x1, .f32⟩
  | .hbm, ⟨18, _⟩ => ⟨S1, .f32⟩
  | .hbm, ⟨19, _⟩ => ⟨S200000x16, .f32⟩
  | .hbm, ⟨20, _⟩ => ⟨S1x16, .f32⟩
  | .hbm, ⟨21, _⟩ => ⟨S200000x16, .f32⟩
  | .hbm, ⟨22, _⟩ => ⟨S200000x16, .f32⟩
  | .hbm, ⟨23, _⟩ => ⟨S200000x16, .f32⟩
  | .hbm, ⟨24, _⟩ => ⟨S50000x16, .f32⟩
  | .hbm, ⟨25, _⟩ => ⟨S1x16, .f32⟩
  | .hbm, ⟨26, _⟩ => ⟨S50000x16, .f32⟩
  | .hbm, ⟨27, _⟩ => ⟨S50000x16, .f32⟩
  | .hbm, ⟨28, _⟩ => ⟨S50000x16, .f32⟩
  | .hbm, ⟨29, _⟩ => ⟨S100000x16, .f32⟩
  | .hbm, ⟨30, _⟩ => ⟨S1x16, .f32⟩
  | .hbm, ⟨31, _⟩ => ⟨S100000x16, .f32⟩
  | .hbm, ⟨32, _⟩ => ⟨S100000x16, .f32⟩
  | .hbm, ⟨33, _⟩ => ⟨S100000x16, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000x16, .f32⟩
  | .hbm, ⟨43, _⟩ => ⟨S_, .f32⟩
  | .hbm, ⟨44, _⟩ => ⟨S50000x16, .f32⟩
  | .hbm, ⟨45, _⟩ => ⟨S400000x1, .i32⟩
  | .hbm, ⟨46, _⟩ => ⟨S50000x16, .f32⟩
  | .hbm, ⟨47, _⟩ => ⟨S_, .f32⟩
  | .hbm, ⟨48, _⟩ => ⟨S400000x1, .f32⟩
  | .hbm, ⟨49, _⟩ => ⟨S_, .f32⟩
  | .hbm, ⟨50, _⟩ => ⟨S50000x1, .f32⟩
  | .hbm, ⟨51, _⟩ => ⟨S400000x1, .i32⟩
  | .hbm, ⟨52, _⟩ => ⟨S50000x1, .f32⟩
  | .hbm, ⟨53, _⟩ => ⟨S_, .f32⟩
  | .hbm, ⟨54, _⟩ => ⟨S50000x1, .f32⟩
  | .hbm, ⟨55, _⟩ => ⟨S50000x1, .f32⟩
  | .hbm, ⟨56, _⟩ => ⟨S50000x16, .f32⟩
  | .hbm, ⟨57, _⟩ => ⟨S50000x16, .f32⟩
  | .hbm, ⟨58, _⟩ => ⟨S50000x32, .f32⟩
  | .hbm, ⟨59, _⟩ => ⟨S_, .i32⟩
  | .hbm, ⟨60, _⟩ => ⟨S4000000, .i32⟩
  | .hbm, ⟨61, _⟩ => ⟨S4000000, .i1⟩
  | .hbm, ⟨62, _⟩ => ⟨S_, .i32⟩
  | .hbm, ⟨63, _⟩ => ⟨S4000000, .i32⟩
  | .hbm, ⟨64, _⟩ => ⟨S4000000, .i32⟩
  | .hbm, ⟨65, _⟩ => ⟨S4000000, .i32⟩
  | .hbm, ⟨66, _⟩ => ⟨S4000000x1, .i32⟩
  | .hbm, ⟨67, _⟩ => ⟨S4000000x32, .f32⟩
  | .hbm, ⟨68, _⟩ => ⟨S_, .f32⟩
  | .hbm, ⟨69, _⟩ => ⟨S200000x32, .f32⟩
  | .hbm, ⟨70, _⟩ => ⟨S4000000x1, .i32⟩
  | .hbm, ⟨71, _⟩ => ⟨S200000x32, .f32⟩
  | .hbm, ⟨72, _⟩ => ⟨S_, .f32⟩
  | .hbm, ⟨73, _⟩ => ⟨S4000000x1, .f32⟩
  | .hbm, ⟨74, _⟩ => ⟨S_, .f32⟩
  | .hbm, ⟨75, _⟩ => ⟨S200000x1, .f32⟩
  | .hbm, ⟨76, _⟩ => ⟨S4000000x1, .i32⟩
  | .hbm, ⟨77, _⟩ => ⟨S200000x1, .f32⟩
  | .hbm, ⟨78, _⟩ => ⟨S_, .f32⟩
  | .hbm, ⟨79, _⟩ => ⟨S200000x1, .f32⟩
  | .hbm, ⟨80, _⟩ => ⟨S200000x1, .f32⟩
  | .hbm, ⟨81, _⟩ => ⟨S200000x32, .f32⟩
  | .hbm, ⟨82, _⟩ => ⟨S200000x32, .f32⟩
  | .hbm, ⟨83, _⟩ => ⟨S200000x48, .f32⟩
  | .hbm, ⟨84, _⟩ => ⟨S200000x64, .f32⟩
  | .hbm, ⟨85, _⟩ => ⟨S1x64, .f32⟩
  | .hbm, ⟨86, _⟩ => ⟨S200000x64, .f32⟩
  | .hbm, ⟨87, _⟩ => ⟨S200000x64, .f32⟩
  | .hbm, ⟨88, _⟩ => ⟨S200000x64, .f32⟩
  | .hbm, ⟨89, _⟩ => ⟨S200000x64, .f32⟩
  | .hbm, ⟨90, _⟩ => ⟨S1x64, .f32⟩
  | .hbm, ⟨91, _⟩ => ⟨S200000x64, .f32⟩
  | .hbm, ⟨92, _⟩ => ⟨S200000x64, .f32⟩
  | .hbm, ⟨93, _⟩ => ⟨S200000x64, .f32⟩
  | .hbm, ⟨94, _⟩ => ⟨S200000x1, .f32⟩
  | .hbm, ⟨95, _⟩ => ⟨S1x1, .f32⟩
  | .hbm, ⟨96, _⟩ => ⟨S200000x1, .f32⟩
  | .hbm, ⟨97, _⟩ => ⟨S200000x1, .f32⟩
  | _, _ => ⟨S200000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_c_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S1x16_S50000x16_0_1 : S1x16.BroadcastsInDim S50000x16 (![0, 1] : Fin 2 → Fin S50000x16.rank)
  bcast_S1x16_S100000x16_0_1 : S1x16.BroadcastsInDim S100000x16 (![0, 1] : Fin 2 → Fin S100000x16.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S50000x16 : S_.BroadcastsInDim S50000x16 (![] : Fin 0 → Fin S50000x16.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x16_0_1 : S50000x1.BroadcastsInDim S50000x16 (![0, 1] : Fin 2 → Fin S50000x16.rank)
  concatenates_S50000x16_S50000x16_S50000x32_d1 : Shape.Concatenates [S50000x16, S50000x16] S50000x32 1
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S200000x32 : S_.BroadcastsInDim S200000x32 (![] : Fin 0 → Fin S200000x32.rank)
  bcast_S_S4000000x1 : S_.BroadcastsInDim S4000000x1 (![] : Fin 0 → Fin S4000000x1.rank)
  bcast_S_S200000x1 : S_.BroadcastsInDim S200000x1 (![] : Fin 0 → Fin S200000x1.rank)
  bcast_S200000x1_S200000x32_0_1 : S200000x1.BroadcastsInDim S200000x32 (![0, 1] : Fin 2 → Fin S200000x32.rank)
  concatenates_S200000x16_S200000x32_S200000x48_d1 : Shape.Concatenates [S200000x16, S200000x32] S200000x48 1
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S200000x10_S10x16_S200000x16_1_0_0_1_n_n_wf : DotDims.WF S200000x10 S10x16 S200000x16 [1] [0] [0] [1] [] []
  dot_S50000x8_S8x16_S50000x16_1_0_0_1_n_n_wf : DotDims.WF S50000x8 S8x16 S50000x16 [1] [0] [0] [1] [] []
  dot_S100000x10_S10x16_S100000x16_1_0_0_1_n_n_wf : DotDims.WF S100000x10 S10x16 S100000x16 [1] [0] [0] [1] [] []
  gather_S100000x16_S400000x1_S400000x16_1_0_n_n_0_1_116_wf : GatherDims.WF S100000x16 S400000x1 S400000x16 [1] [0] [] [0] [] 1 ![1, 16]
  scatter_S50000x16_S400000x1_S400000x16_1_0_0_1_wf : ScatterDims.WF S50000x16 S400000x1 S400000x16 [1] [0] [0] 1
  scatter_S50000x1_S400000x1_S400000x1_1_0_0_1_wf : ScatterDims.WF S50000x1 S400000x1 S400000x1 [1] [0] [0] 1
  gather_S50000x32_S4000000x1_S4000000x32_1_0_n_n_0_1_132_wf : GatherDims.WF S50000x32 S4000000x1 S4000000x32 [1] [0] [] [0] [] 1 ![1, 32]
  scatter_S200000x32_S4000000x1_S4000000x32_1_0_0_1_wf : ScatterDims.WF S200000x32 S4000000x1 S4000000x32 [1] [0] [0] 1
  scatter_S200000x1_S4000000x1_S4000000x1_1_0_0_1_wf : ScatterDims.WF S200000x1 S4000000x1 S4000000x1 [1] [0] [0] 1
  dot_S200000x48_S48x64_S200000x64_1_0_0_1_n_n_wf : DotDims.WF S200000x48 S48x64 S200000x64 [1] [0] [0] [1] [] []
  dot_S200000x64_S64x64_S200000x64_1_0_0_1_n_n_wf : DotDims.WF S200000x64 S64x64 S200000x64 [1] [0] [0] [1] [] []
  dot_S200000x64_S64x1_S200000x1_1_0_0_1_n_n_wf : DotDims.WF S200000x64 S64x1 S200000x1 [1] [0] [0] [1] [] []

variable [Facts₀]

def dot_S200000x10_S10x16_S200000x16_1_0_0_1_n_n : DotDims S200000x10 S10x16 S200000x16 where
  lhsContracting := [1]
  rhsContracting := [0]
  lhsNonContracting := [0]
  rhsNonContracting := [1]
  lhsBatch := []
  rhsBatch := []
  wf := dot_S200000x10_S10x16_S200000x16_1_0_0_1_n_n_wf
def dot_S50000x8_S8x16_S50000x16_1_0_0_1_n_n : DotDims S50000x8 S8x16 S50000x16 where
  lhsContracting := [1]
  rhsContracting := [0]
  lhsNonContracting := [0]
  rhsNonContracting := [1]
  lhsBatch := []
  rhsBatch := []
  wf := dot_S50000x8_S8x16_S50000x16_1_0_0_1_n_n_wf
def dot_S100000x10_S10x16_S100000x16_1_0_0_1_n_n : DotDims S100000x10 S10x16 S100000x16 where
  lhsContracting := [1]
  rhsContracting := [0]
  lhsNonContracting := [0]
  rhsNonContracting := [1]
  lhsBatch := []
  rhsBatch := []
  wf := dot_S100000x10_S10x16_S100000x16_1_0_0_1_n_n_wf
def gather_S100000x16_S400000x1_S400000x16_1_0_n_n_0_1_116 : GatherDims S100000x16 S400000x1 S400000x16 where
  offsetDims := [1]
  collapsedSliceDims := [0]
  operandBatchingDims := []
  startIndicesBatchingDims := []
  startIndexMap := [0]
  indexVectorDim := 1
  sliceSizes := ![1, 16]
  wf := gather_S100000x16_S400000x1_S400000x16_1_0_n_n_0_1_116_wf
def scatter_S50000x16_S400000x1_S400000x16_1_0_0_1 : ScatterDims S50000x16 S400000x1 S400000x16 where
  updateWindowDims := [1]
  insertedWindowDims := [0]
  scatterDimsToOperandDims := [0]
  indexVectorDim := 1
  wf := scatter_S50000x16_S400000x1_S400000x16_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def gather_S50000x32_S4000000x1_S4000000x32_1_0_n_n_0_1_132 : GatherDims S50000x32 S4000000x1 S4000000x32 where
  offsetDims := [1]
  collapsedSliceDims := [0]
  operandBatchingDims := []
  startIndicesBatchingDims := []
  startIndexMap := [0]
  indexVectorDim := 1
  sliceSizes := ![1, 32]
  wf := gather_S50000x32_S4000000x1_S4000000x32_1_0_n_n_0_1_132_wf
def scatter_S200000x32_S4000000x1_S4000000x32_1_0_0_1 : ScatterDims S200000x32 S4000000x1 S4000000x32 where
  updateWindowDims := [1]
  insertedWindowDims := [0]
  scatterDimsToOperandDims := [0]
  indexVectorDim := 1
  wf := scatter_S200000x32_S4000000x1_S4000000x32_1_0_0_1_wf
def scatter_S200000x1_S4000000x1_S4000000x1_1_0_0_1 : ScatterDims S200000x1 S4000000x1 S4000000x1 where
  updateWindowDims := [1]
  insertedWindowDims := [0]
  scatterDimsToOperandDims := [0]
  indexVectorDim := 1
  wf := scatter_S200000x1_S4000000x1_S4000000x1_1_0_0_1_wf
def dot_S200000x48_S48x64_S200000x64_1_0_0_1_n_n : DotDims S200000x48 S48x64 S200000x64 where
  lhsContracting := [1]
  rhsContracting := [0]
  lhsNonContracting := [0]
  rhsNonContracting := [1]
  lhsBatch := []
  rhsBatch := []
  wf := dot_S200000x48_S48x64_S200000x64_1_0_0_1_n_n_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.KernelRun.lean ====
/-
  The idealized kernel's run with EVERY buffer named: at the compiled mesh, from any memory with zero counters, every
  weakly fair execution of @main terminates, nothing faulting, and every unscoped TensorCore buffer ends at the last
  boundary's contents `Gen.W6` — the fold of the three stretches of host operations and the three regions'
  write-backs from the launch memory. The frame claim keeps of this only the argument arrays; the value claim reads the
  result array `main_v44` off it as well. It is the library's launch theorem for a program of several regions over
  the segments of @main, the last thread state read against the final state at every unscoped buffer.
-/
import proofs.«144995_j46454366273712_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.RunValue

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.LibDenseRelu.lean ====
/-
  A dense layer followed by a rectifier, read at an entry at the ideal values (the extended reals), for arbitrary
  extents, in the two spellings a program meets it in.

  * `hostBias_apply`: a bias vector `[n]` broadcast through a unit row `[1, n]` over `[m, n]` reads, at `(a, b)`,
    the vector's entry `b`.
  * `hostDenseRelu_apply`: the host's `max (A · B + bias) 0` — a `dot_general` of `[m, k]` by `[k, n]`, the bias
    broadcast as above, the zero a broadcast scalar constant — is, at `(a, b)`,
    `max (∑ c, A (a, c) * B (c, b) + bias b) 0`.
  * `vecDenseRelu_apply`: the vector unit's spelling — a `tpu.matmul` of the two operands, each first rounded to a
    narrower format (the identity on extended reals), into a zero accumulator, the bias a `[1, n]` row (behind an
    identity shape cast) broadcast over the rows, the zero a broadcast scalar — is the same expression with the bias
    row's entry `(0, b)`.
-/
import Idealize.ShloMosaic.Lib.Pipeline.Value
import Idealize.ShloMosaic.Lib.ValueIdx
import Idealize.ShloMosaic.Lib.ValueLayout
import Idealize.ShloMosaic.PureOps.Ideal.Laws
import proofs.«144995_j46454366273712_2_alg».proof.Proof.LibDenseLayers
import proofs.«144995_j46454366273712_2_alg».proof.Proof.LibHostMatmul

noncomputable section

namespace Idealize.ShloMosaic.DenseRelu

open Idealize.ShloMosaic Idealize.ShloMosaic.ValueIdx Idealize.ShloMosaic.DenseLayers

/-- A bias vector broadcast through a unit row over all rows reads its entry of the column. -/
theorem hostBias_apply {α : Type} {m n : ℕ} (bias : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (a : Fin m) (b : Fin n) :
    broadcastInDim ⟨2, ![m, n]⟩ ![0, 1] h2 (broadcastInDim ⟨2, ![1, n]⟩ ![1] h1 bias) (ix2 a b) = bias (ix1 b) := by
  refine (broadcastInDim_apply _ h2 _ (ix2 a b) (ix2 (0 : Fin 1) b) fun ax => ?_).trans
    (broadcastInDim_apply _ h1 bias (ix2 (0 : Fin 1) b) (ix1 b) fun ax => ?_)
  · match ax with
    | ⟨0, _⟩ => rfl
    | ⟨1, _⟩ =>
      show b.val = if n = 1 then 0 else b.val
      split
      · have := b.isLt; omega
      · rfl
  · match ax with
    | ⟨0, _⟩ =>
      show b.val = if n = 1 then 0 else b.val
      split
      · have := b.isLt; omega
      · rfl

/-- The host's dense layer with a rectifier, read at an entry. -/
theorem hostDenseRelu_apply {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (bias : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![]) (a : Fin m) (b : Fin n) :
    maximumf (addf (Host.dotGeneral (⟨[1], [0], [0], [1], [], [], w⟩ : DotDims ⟨2, ![m, k]⟩ ⟨2, ![k, n]⟩ ⟨2, ![m, n]⟩) prec A B)
        (broadcastInDim ⟨2, ![m, n]⟩ ![0, 1] h2 (broadcastInDim ⟨2, ![1, n]⟩ ![1] h1 bias)))
      (broadcastInDim ⟨2, ![m, n]⟩ ![] h0 (constant (F := Ideal) ⟨0, ![]⟩ .f32 0x00000000#32)) (ix2 a b)
      = max (∑ c : Fin k, A (ix2 a c) * B (ix2 c b) + bias (ix1 b)) (Ideal.ofBits .f32 0x00000000#32) := by
  rw [maximumf_apply, addf_apply, dotGeneral_rowcol_apply, hostBias_apply, broadcastInDim_scalar_constant_apply]

/-- The vector unit's dense layer with a rectifier, read at an entry. -/
theorem vecDenseRelu_apply {m k n : ℕ} {ψ : FTy}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (hA : ψ.bits < FTy.f32.bits) (hB : ψ.bits < FTy.f32.bits)
    (bias : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) (a : Fin m) (b : Fin n) :
    maximumf (addf (matmul (⟨[1], [0], [0], [1], [], [], w⟩ : DotDims ⟨2, ![m, k]⟩ ⟨2, ![k, n]⟩ ⟨2, ![m, n]⟩) prec
          (truncf ψ A hA) (truncf ψ B hB) (constant (F := Ideal) ⟨2, ![m, n]⟩ .f32 0x00000000#32))
        (broadcastTo ⟨2, ![m, n]⟩ (shapeCast ⟨2, ![1, n]⟩ bias hc) hb))
      (broadcast ⟨2, ![m, n]⟩ (Scalar.ofBits (F := Ideal) .f32 0x00000000#32)) (ix2 a b)
      = max (∑ c : Fin k, A (ix2 a c) * B (ix2 c b) + bias (ix2 (0 : Fin 1) b)) (Ideal.ofBits .f32 0x00000000#32) := by
  rw [maximumf_apply, addf_apply, matmul_rowcol_zero_apply, broadcastTo_1b_ab_apply, shapeCast_self]
  rfl

end Idealize.ShloMosaic.DenseRelu

end
-- ==== Proof.LibConcatContraction.lean ====
/-
  A contraction over a concatenated axis splits into the contractions over the pieces (arbitrary extents; no
  program imported).

  * `sum_fin_split`: in an additive commutative monoid, a sum over `Fin n` with `n = a + b` is the sum of its
    first `a` terms plus the sum of the `b` terms from position `a` on.
  * `concat_cols_left` / `concat_cols_right`: two matrices `[r, a]` and `[r, b]` joined along the columns into
    `[r, n]`, `n = a + b`, read at `(i, k)`: the first at `(i, k)` for `k < a`, the second at `(i, k - a)` from
    column `a` on.
  * `contraction_concat`: so the row-by-column product of the joined matrix with `W : [n, c]` at `(i, j)` is the
    product of the first piece with the first `a` rows of `W` plus that of the second with the rows from `a` on.
    Only commutativity and associativity of the sum are used: it holds on the extended reals whatever the entries.
-/
import Idealize.ShloMosaic.Lib.Pipeline.Value
import Idealize.ShloMosaic.Lib.ValueIdx

noncomputable section

open scoped BigOperators

namespace Idealize.ShloMosaic.ConcatContraction

open Idealize.ShloMosaic Idealize.ShloMosaic.ValueIdx

/-- A sum over `Fin n`, `n = a + b`, is the sum of the first `a` terms plus the sum of the last `b`. -/
theorem sum_fin_split {M : Type*} [AddCommMonoid M] {n : ℕ} (a b : ℕ) (h : n = a + b) (f : Fin n → M) :
    ∑ k : Fin n, f k
      = (∑ k : Fin a, f ⟨k.val, by omega⟩) + ∑ k : Fin b, f ⟨a + k.val, by omega⟩ := by
  subst h
  exact Fin.sum_univ_add f

variable {α : Type}

/-- Two matrices joined along the columns, read at a column of the first. -/
theorem concat_cols_left {r a b n : ℕ} (x : (⟨2, ![r, a]⟩ : Shape).Idx → α) (y : (⟨2, ![r, b]⟩ : Shape).Idx → α)
    (h : Shape.Concatenates [(⟨2, ![r, a]⟩ : Shape), ⟨2, ![r, b]⟩] ⟨2, ![r, n]⟩ 1)
    (i : Fin r) (k : Fin a) (k' : Fin n) (hk : k'.val = k.val) :
    concatenate ⟨2, ![r, n]⟩ 1 [⟨⟨2, ![r, a]⟩, x⟩, ⟨⟨2, ![r, b]⟩, y⟩] h (ix2 i k') = x (ix2 i k) :=
  concatenate_pair_apply_left (1 : Fin 2) x y h (ix2 i k') rfl (ix2 i k) (fun ax => by
    match ax with
    | ⟨0, _⟩ => rfl
    | ⟨1, _⟩ => exact hk.symm)

/-- Two matrices joined along the columns, read at a column of the second. -/
theorem concat_cols_right {r a b n : ℕ} (x : (⟨2, ![r, a]⟩ : Shape).Idx → α) (y : (⟨2, ![r, b]⟩ : Shape).Idx → α)
    (h : Shape.Concatenates [(⟨2, ![r, a]⟩ : Shape), ⟨2, ![r, b]⟩] ⟨2, ![r, n]⟩ 1)
    (i : Fin r) (k : Fin b) (k' : Fin n) (hk : k'.val = a + k.val) :
    concatenate ⟨2, ![r, n]⟩ 1 [⟨⟨2, ![r, a]⟩, x⟩, ⟨⟨2, ![r, b]⟩, y⟩] h (ix2 i k') = y (ix2 i k) :=
  concatenate_pair_apply_right (1 : Fin 2) x y h (ix2 i k') rfl rfl (ix2 i k) (fun ax hax => by
    match ax with
    | ⟨0, _⟩ => rfl
    | ⟨1, _⟩ => exact absurd rfl hax) (by
    show k.val + a = k'.val
    omega)

/-- The product of a column-joined matrix with `W`, at an entry, splits along the join. -/
theorem contraction_concat {r a b n c : ℕ} (hn : n = a + b)
    (x : (⟨2, ![r, a]⟩ : Shape).Idx → EReal) (y : (⟨2, ![r, b]⟩ : Shape).Idx → EReal)
    (h : Shape.Concatenates [(⟨2, ![r, a]⟩ : Shape), ⟨2, ![r, b]⟩] ⟨2, ![r, n]⟩ 1)
    (W : (⟨2, ![n, c]⟩ : Shape).Idx → EReal) (i : Fin r) (j : Fin c) :
    ∑ k : Fin n, concatenate ⟨2, ![r, n]⟩ 1 [⟨⟨2, ![r, a]⟩, x⟩, ⟨⟨2, ![r, b]⟩, y⟩] h (ix2 i k) * W (ix2 k j)
      = (∑ k : Fin a, x (ix2 i k) * W (ix2 (⟨k.val, by omega⟩ : Fin n) j))
        + ∑ k : Fin b, y (ix2 i k) * W (ix2 (⟨a + k.val, by omega⟩ : Fin n) j) := by
  rw [sum_fin_split a b hn]
  congr 1
  · exact Finset.sum_congr rfl fun k _ => by rw [concat_cols_left x y h i k _ rfl]
  · exact Finset.sum_congr rfl fun k _ => by rw [concat_cols_right x y h i k _ rfl]

end Idealize.ShloMosaic.ConcatContraction

end
-- ==== Proof.LibDenseTanh.lean ====
/-
  Affine layers `A · B + bias`, with and without a hyperbolic tangent on top, read at an entry at the ideal values
  (the extended reals) for arbitrary extents, in the two spellings a program meets them in, and the comparison of the
  two spellings ROW BY ROW: a tile of `m` rows against a matrix of `M` rows.

  * `vecAffine_apply`: the vector unit's spelling — a `tpu.matmul` of the two operands, each first rounded to a
    narrower format (the identity on extended reals), into a zero accumulator, plus a `[1, n]` bias row (behind an
    identity shape cast) broadcast over the rows — is, at `(a, b)`, `∑ c, A (a, c) * B (c, b) + bias (0, b)`.
  * `hostAffine_apply`: the host's spelling — a `dot_general` plus a bias vector `[n]` broadcast through a unit row —
    is, at `(a, b)`, `∑ c, A (a, c) * B (c, b) + bias b`.
  * `affine_rows` / `tanhAffine_rows`: if row `a` of the tile `A` is row `a'` of the matrix `A'`, the weights are the
    same and the bias row is the bias vector, then row `a` of the vector unit's layer is row `a'` of the host's.
    No algebra is used beyond congruence: the two sums have the same terms in the same order.
  * `concat_rows`: two tiles joined along the columns agree, row by row, with two matrices joined along the columns
    when the pieces agree row by row.
-/
import Idealize.ShloMosaic.Lib.Pipeline.Value
import Idealize.ShloMosaic.Lib.ValueIdx
import Idealize.ShloMosaic.Lib.ValueLayout
import Idealize.ShloMosaic.PureOps.Ideal.Laws
import proofs.«144995_j46454366273712_2_alg».proof.Proof.LibDenseLayers
import proofs.«144995_j46454366273712_2_alg».proof.Proof.LibHostMatmul
import proofs.«144995_j46454366273712_2_alg».proof.Proof.LibDenseRelu
import proofs.«144995_j46454366273712_2_alg».proof.Proof.LibConcatContraction

noncomputable section

namespace Idealize.ShloMosaic.DenseTanh

open Idealize.ShloMosaic Idealize.ShloMosaic.ValueIdx Idealize.ShloMosaic.DenseLayers Idealize.ShloMosaic.DenseRelu
  Idealize.ShloMosaic.ConcatContraction

/-- The vector unit's affine layer read at an entry. -/
theorem vecAffine_apply {m k n : ℕ} {ψ : FTy}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (hA : ψ.bits < FTy.f32.bits) (hB : ψ.bits < FTy.f32.bits)
    (bias : FVec Ideal ⟨2, ![1, n]⟩ .f32) (hc : (⟨2, ![1, n]⟩ : Shape).ShapeCasts ⟨2, ![1, n]⟩)
    (hb : (⟨2, ![1, n]⟩ : Shape).Broadcasts ⟨2, ![m, n]⟩) (a : Fin m) (b : Fin n) :
    addf (matmul (⟨[1], [0], [0], [1], [], [], w⟩ : DotDims ⟨2, ![m, k]⟩ ⟨2, ![k, n]⟩ ⟨2, ![m, n]⟩) prec
          (truncf ψ A hA) (truncf ψ B hB) (constant (F := Ideal) ⟨2, ![m, n]⟩ .f32 0x00000000#32))
        (broadcastTo ⟨2, ![m, n]⟩ (shapeCast ⟨2, ![1, n]⟩ bias hc) hb) (ix2 a b)
      = ∑ c : Fin k, A (ix2 a c) * B (ix2 c b) + bias (ix2 (0 : Fin 1) b) := by
  rw [addf_apply, matmul_rowcol_zero_apply, broadcastTo_1b_ab_apply, shapeCast_self]
  rfl

/-- The host's affine layer read at an entry. -/
theorem hostAffine_apply {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (bias : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) (a : Fin m) (b : Fin n) :
    addf (Host.dotGeneral (⟨[1], [0], [0], [1], [], [], w⟩ : DotDims ⟨2, ![m, k]⟩ ⟨2, ![k, n]⟩ ⟨2, ![m, n]⟩) prec A B)
        (broadcastInDim ⟨2, ![m, n]⟩ ![0, 1] h2 (broadcastInDim ⟨2, ![1, n]⟩ ![1] h1 bias)) (ix2 a b)
      = ∑ c : Fin k, A (ix2 a c) * B (ix2 c b) + bias (ix1 b) := by
  rw [addf_apply, dotGeneral_rowcol_apply, hostBias_apply]

/-- Row `a` of the vector unit's affine layer on a tile is row `a'` of the host's on the whole matrix, when the
    tile's row is the matrix's row and the bias row is the bias vector. -/
theorem affine_rows {m M k n : ℕ} {ψ : FTy}
    (wK : DotDims.WF ⟨2, ![m, k]⟩ ⟨2, ![k, n]⟩ ⟨2, ![m, n]⟩ [1] [0] [0] [1] [] [])
    (wR : DotDims.WF ⟨2, ![M, k]⟩ ⟨2, ![k, n]⟩ ⟨2, ![M, n]⟩ [1] [0] [0] [1] [] [])
    (precK precR : Option ContractPrecision)
    (A : FVec Ideal ⟨2, ![m, k]⟩ .f32) (A' : FVec Ideal ⟨2, ![M, k]⟩ .f32) (B : FVec Ideal ⟨2, ![k, n]⟩ .f32)
    (hA : ψ.bits < FTy.f32.bits) (hB : ψ.bits < FTy.f32.bits)
    (bias : FVec Ideal ⟨2, ![1, n]⟩ .f32) (bvec : FVec Ideal ⟨1, ![n]⟩ .f32)
    (hc : (⟨2, ![1, n]⟩ : Shape).ShapeCasts ⟨2, ![1, n]⟩) (hb : (⟨2, ![1, n]⟩ : Shape).Broadcasts ⟨2, ![m, n]⟩)
    (h1 : (⟨1, ![n]⟩ : Shape).BroadcastsInDim ⟨2, ![1, n]⟩ ![1])
    (h2 : (⟨2, ![1, n]⟩ : Shape).BroadcastsInDim ⟨2, ![M, n]⟩ ![0, 1])
    (a : Fin m) (a' : Fin M) (hrow : ∀ c : Fin k, A (ix2 a c) = A' (ix2 a' c))
    (hbias : ∀ j : Fin n, bias (ix2 (0 : Fin 1) j) = bvec (ix1 j)) (j : Fin n) :
    addf (matmul (⟨[1], [0], [0], [1], [], [], wK⟩ : DotDims ⟨2, ![m, k]⟩ ⟨2, ![k, n]⟩ ⟨2, ![m, n]⟩) precK
          (truncf ψ A hA) (truncf ψ B hB) (constant (F := Ideal) ⟨2, ![m, n]⟩ .f32 0x00000000#32))
        (broadcastTo ⟨2, ![m, n]⟩ (shapeCast ⟨2, ![1, n]⟩ bias hc) hb) (ix2 a j)
      = addf (Host.dotGeneral (⟨[1], [0], [0], [1], [], [], wR⟩ : DotDims ⟨2, ![M, k]⟩ ⟨2, ![k, n]⟩ ⟨2, ![M, n]⟩) precR A' B)
        (broadcastInDim ⟨2, ![M, n]⟩ ![0, 1] h2 (broadcastInDim ⟨2, ![1, n]⟩ ![1] h1 bvec)) (ix2 a' j) := by
  rw [vecAffine_apply, hostAffine_apply, hbias]
  exact congrArg (· + bvec (ix1 j)) (Finset.sum_congr rfl fun c _ => by rw [hrow c])

/-- The same with a hyperbolic tangent on top: the vector unit's `math.tanh` and the host's `tanh` are one function
    on the extended reals. -/
theorem tanhAffine_rows {m M k n : ℕ} {ψ : FTy}
    (wK : DotDims.WF ⟨2, ![m, k]⟩ ⟨2, ![k, n]⟩ ⟨2, ![m, n]⟩ [1] [0] [0] [1] [] [])
    (wR : DotDims.WF ⟨2, ![M, k]⟩ ⟨2, ![k, n]⟩ ⟨2, ![M, n]⟩ [1] [0] [0] [1] [] [])
    (precK precR : Option ContractPrecision)
    (A : FVec Ideal ⟨2, ![m, k]⟩ .f32) (A' : FVec Ideal ⟨2, ![M, k]⟩ .f32) (B : FVec Ideal ⟨2, ![k, n]⟩ .f32)
    (hA : ψ.bits < FTy.f32.bits) (hB : ψ.bits < FTy.f32.bits)
    (bias : FVec Ideal ⟨2, ![1, n]⟩ .f32) (bvec : FVec Ideal ⟨1, ![n]⟩ .f32)
    (hc : (⟨2, ![1, n]⟩ : Shape).ShapeCasts ⟨2, ![1, n]⟩) (hb : (⟨2, ![1, n]⟩ : Shape).Broadcasts ⟨2, ![m, n]⟩)
    (h1 : (⟨1, ![n]⟩ : Shape).BroadcastsInDim ⟨2, ![1, n]⟩ ![1])
    (h2 : (⟨2, ![1, n]⟩ : Shape).BroadcastsInDim ⟨2, ![M, n]⟩ ![0, 1])
    (a : Fin m) (a' : Fin M) (hrow : ∀ c : Fin k, A (ix2 a c) = A' (ix2 a' c))
    (hbias : ∀ j : Fin n, bias (ix2 (0 : Fin 1) j) = bvec (ix1 j)) (j : Fin n) :
    tanh (addf (matmul (⟨[1], [0], [0], [1], [], [], wK⟩ : DotDims ⟨2, ![m, k]⟩ ⟨2, ![k, n]⟩ ⟨2, ![m, n]⟩) precK
          (truncf ψ A hA) (truncf ψ B hB) (constant (F := Ideal) ⟨2, ![m, n]⟩ .f32 0x00000000#32))
        (broadcastTo ⟨2, ![m, n]⟩ (shapeCast ⟨2, ![1, n]⟩ bias hc) hb)) (ix2 a j)
      = Host.tanh (addf (Host.dotGeneral (⟨[1], [0], [0], [1], [], [], wR⟩ : DotDims ⟨2, ![M, k]⟩ ⟨2, ![k, n]⟩ ⟨2, ![M, n]⟩) precR A' B)
        (broadcastInDim ⟨2, ![M, n]⟩ ![0, 1] h2 (broadcastInDim ⟨2, ![1, n]⟩ ![1] h1 bvec))) (ix2 a' j) :=
  congrArg Ideal.tanh (affine_rows wK wR precK precR A A' B hA hB bias bvec hc hb h1 h2 a a' hrow hbias j)

/-- Two tiles joined along the columns against two matrices joined along the columns, row by row. -/
theorem concat_rows {α : Type} {r R p q n : ℕ} (hn : n = p + q)
    (x : (⟨2, ![r, p]⟩ : Shape).Idx → α) (y : (⟨2, ![r, q]⟩ : Shape).Idx → α)
    (x' : (⟨2, ![R, p]⟩ : Shape).Idx → α) (y' : (⟨2, ![R, q]⟩ : Shape).Idx → α)
    (h : Shape.Concatenates [(⟨2, ![r, p]⟩ : Shape), ⟨2, ![r, q]⟩] ⟨2, ![r, n]⟩ 1)
    (h' : Shape.Concatenates [(⟨2, ![R, p]⟩ : Shape), ⟨2, ![R, q]⟩] ⟨2, ![R, n]⟩ 1)
    (a : Fin r) (a' : Fin R) (hx : ∀ c : Fin p, x (ix2 a c) = x' (ix2 a' c))
    (hy : ∀ c : Fin q, y (ix2 a c) = y' (ix2 a' c)) (c : Fin n) :
    concatenate ⟨2, ![r, n]⟩ 1 [⟨⟨2, ![r, p]⟩, x⟩, ⟨⟨2, ![r, q]⟩, y⟩] h (ix2 a c)
      = concatenate ⟨2, ![R, n]⟩ 1 [⟨⟨2, ![R, p]⟩, x'⟩, ⟨⟨2, ![R, q]⟩, y'⟩] h' (ix2 a' c) := by
  by_cases hc : c.val < p
  · rw [concat_cols_left x y h a ⟨c.val, hc⟩ c rfl, concat_cols_left x' y' h' a' ⟨c.val, hc⟩ c rfl]
    exact hx _
  · have hq : c.val - p < q := by have := c.isLt; omega
    rw [concat_cols_right x y h a ⟨c.val - p, hq⟩ c (by show c.val = p + (c.val - p); omega),
      concat_cols_right x' y' h' a' ⟨c.val - p, hq⟩ c (by show c.val = p + (c.val - p); omega)]
    exact hy _

end Idealize.ShloMosaic.DenseTanh

end
-- ==== Proof.Encoder.lean ====
/-
  Region 0, the passenger encoder: a grid of 10 points, point `t` taking rows `10000·t … 10000·t + 9999` of the
  passenger features with the whole weight matrix and the whole bias row, and writing `tanh (x · W + b)` of its tile
  back to the same rows of the output. Row by row this is the host's encoder on the whole array: the matrix product of
  a tile's row is the sum over the same ten products as the whole array's row, the bias row `(0, j)` is the bias
  vector's entry `j`, and the hyperbolic tangent is one function on the extended reals. The tiles cover the array, so
  the output array after the region is the host's stage of the whole inputs.
-/
import proofs.«144995_j46454366273712_2_alg».proof.Proof.Gen.KernelIdeal.Frame
import proofs.«144995_j46454366273712_2_alg».proof.Proof.Gen.ReferenceIdeal.Read
import proofs.«144995_j46454366273712_2_alg».proof.Proof.LibDenseTanh

set_option maxRecDepth 16384

noncomputable section

namespace Cert.KernelIdeal.Encoder

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- One row of the encoder's tile against the same row of the host's encoder on the whole array. -/
theorem pay_rows (x0 : FVec Ideal S10000x10 .f32) (x1 : FVec Ideal S10x16 .f32) (x2 : FVec Ideal S1x16 .f32)
    (a2 : FVec Ideal S100000x10 .f32) (a11 : FVec Ideal S10x16 .f32) (a12 : FVec Ideal S16 .f32)
    (p : Fin 10000) (p' : Fin 100000) (q : Fin 16)
    (hx : ∀ k : Fin 10, x0 (ix2 p k) = a2 (ix2 p' k)) (hw : x1 = a11)
    (hb : ∀ j : Fin 16, x2 (ix2 (0 : Fin 1) j) = a12 (ix1 j)) :
    k0_pay1 (F := Ideal) x0 x1 x2 (ix2 p q) = Cert.ReferenceIdeal.Read.val_main_v14 (F := Ideal) a2 a11 a12 (ix2 p' q) := by
  subst hw
  unfold k0_pay1 Cert.ReferenceIdeal.Read.val_main_v14 Cert.ReferenceIdeal.Read.val_main_v13 Cert.ReferenceIdeal.Read.val_main_v12 Cert.ReferenceIdeal.Read.val_main_v11 Cert.ReferenceIdeal.Read.val_main_v10
  exact DenseTanh.tanhAffine_rows _ _ none none x0 a2 x1 _ _ x2 a12 _ _ _ _ p p' hx hb q

theorem hz : (![0, 0] : Fin 2 → Nat) = fun _ => 0 := funext fun a => by fin_cases a <;> rfl

/-- The printed index maps over the grid: the row tiles move with the point, the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every row tile of the output is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

variable (V : (c : Dev nD) → (b : Ref sig .tc) → Buf (Elt Ideal) ((c : Thread nD τ).loc b))

/-- WHAT POINT `t` WRITES BACK is its tile of the host's encoder of the whole arrays. -/
theorem flushed_eq (c : Dev nD) (a2 : FVec Ideal S100000x10 .f32) (a11 : FVec Ideal S10x16 .f32) (a12 : FVec Ideal S16 .f32)
    (h2 : V c main_arg2 = a2) (h11 : V c main_arg11 = a11)
    (h0 : ∀ j : Fin 16, V c main_v0 (ix2 (0 : Fin 1) j) = a12 (ix1 j)) (t : Fin cfg0.N) :
    (dat0 V c).flushed 3 t
      = ((cfg0.win 3).blk t).view.read (Elt Ideal) (Cert.ReferenceIdeal.Read.val_main_v14 (F := Ideal) a2 a11 a12) := by
  show (cfg0.win 3).cut (grid0.coords t) ((dat0 V c).after 3 t) = _
  rw [after0_3]
  unfold out0_3
  rw [View.canon_unit_zero hz]
  simp only [View.ld_unit_zero (S := S10000x10) hz, View.ld_unit_zero (S := S10x16) hz, View.ld_unit_zero (S := S1x16) hz]
  funext j
  obtain ⟨p, q, rfl⟩ : ∃ (p : Fin 10000) (q : Fin 16), j = ix2 p q := ⟨j 0, j 1, eq_ix2 j⟩
  have htN : t.val < 10 := lt_of_lt_of_eq (show t.val < grid0.N from t.isLt) N_0
  have hp := p.isLt
  obtain ⟨e0, e1, e2, e3, e4, e5, e6, e7⟩ := idx_facts t
  have hemb : ((cfg0.win 3).blk t).view.emb (ix2 p q) = ix2 (⟨t.val * 10000 + p.val, by omega⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 16 + 1 * q.val = q.val; omega
  show k0_pay1 (iblk0 V c 0 t) (iblk0 V c 1 t) (iblk0 V c 2 t) (ix2 p q)
    = Cert.ReferenceIdeal.Read.val_main_v14 (F := Ideal) a2 a11 a12 (((cfg0.win 3).blk t).view.emb (ix2 p q))
  rw [hemb]
  refine pay_rows (iblk0 V c 0 t) (iblk0 V c 1 t) (iblk0 V c 2 t) a2 a11 a12 p _ q (fun k => ?_) ?_ (fun j => ?_)
  · show V c main_arg2 (((cfg0.win 0).blk t).view.emb (ix2 p k)) = _
    rw [h2]
    refine congrArg a2 (funext fun a => Fin.ext ?_)
    match a with
    | ⟨0, _⟩ => show win0_0.index t (0 : Fin 2) * 10000 + 1 * p.val = t.val * 10000 + p.val; omega
    | ⟨1, _⟩ => show win0_0.index t (1 : Fin 2) * 10 + 1 * k.val = k.val; omega
  · funext i
    obtain ⟨r, s, rfl⟩ : ∃ (r : Fin 10) (s : Fin 16), i = ix2 r s := ⟨i 0, i 1, eq_ix2 i⟩
    show V c main_arg11 (((cfg0.win 1).blk t).view.emb (ix2 r s)) = _
    rw [h11]
    refine congrArg a11 (funext fun a => Fin.ext ?_)
    match a with
    | ⟨0, _⟩ => show win0_1.index t (0 : Fin 2) * 10 + 1 * r.val = r.val; omega
    | ⟨1, _⟩ => show win0_1.index t (1 : Fin 2) * 16 + 1 * s.val = s.val; omega
  · show V c main_v0 (((cfg0.win 2).blk t).view.emb (ix2 (0 : Fin 1) j)) = _
    rw [← h0 j]
    refine congrArg (V c main_v0) (funext fun a => Fin.ext ?_)
    match a with
    | ⟨0, _⟩ => show win0_2.index t (0 : Fin 2) * 1 + 1 * 0 = 0; omega
    | ⟨1, _⟩ => show win0_2.index t (1 : Fin 2) * 16 + 1 * j.val = j.val; omega

/-- An index of the output array is in point `t`'s tile iff each coordinate is in the tile's range on its axis. -/
theorem mem_blk (t : Fin cfg0.N) (i : S100000x16.Idx) :
    i ∈ ((cfg0.win 3).blk t).view.set ↔ ∀ a : Fin 2, win0_3.index t a * S10000x16.size a ≤ (i a).val
      ∧ (i a).val < win0_3.index t a * S10000x16.size a + S10000x16.size a := by
  show i ∈ ((View.whole main_v1).slice (win0_3.rect t)).set ↔ _
  rw [View.set_slice_whole, Rect.mem_set_unit]
  exact Iff.rfl

/-- The tiles cover the output array: row `r` lies in the tile of point `r / 10000`. -/
theorem cover (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 16 ≤ (i 1).val ∧ (i 1).val < win0_3.index t (1 : Fin 2) * 16 + 16; omega

/-- THE OUTPUT ARRAY after region 0: the host's passenger encoder of the whole arrays. -/
theorem final (c : Dev nD) (a2 : FVec Ideal S100000x10 .f32) (a11 : FVec Ideal S10x16 .f32) (a12 : FVec Ideal S16 .f32)
    (h2 : V c main_arg2 = a2) (h11 : V c main_arg11 = a11)
    (h0 : ∀ j : Fin 16, V c main_v0 (ix2 (0 : Fin 1) j) = a12 (ix1 j)) :
    (dat0 V c).arrAt 3 cfg0.N = Cert.ReferenceIdeal.Read.val_main_v14 (F := Ideal) a2 a11 a12 :=
  (dat0 V c).arrAt_eq_of_cover 3 _ (fun t _ => flushed_eq V c a2 a11 a12 h2 h11 h0 t) cover

end Cert.KernelIdeal.Encoder

end
-- ==== Proof.VehicleJoin.lean ====
/-
  Region 1, the vehicle encoder joined with the pooled passenger features: a grid of 10 points, point `t` taking rows
  `5000·t … 5000·t + 4999` of the vehicle features and of the pooled array, with the whole weight matrix and bias row,
  and writing `[tanh (x · W + b) | pooled]` of its tiles back to the same rows of the 32-column output. Row by row this
  is the host's concatenation of its vehicle encoder with the pooled array: columns 0–15 are the encoder's row (the
  same eight products summed, the same bias entry, one hyperbolic tangent), columns 16–31 the pooled row. The tiles
  cover the array.
-/
import proofs.«144995_j46454366273712_2_alg».proof.Proof.Gen.KernelIdeal.Frame
import proofs.«144995_j46454366273712_2_alg».proof.Proof.Gen.ReferenceIdeal.Read
import proofs.«144995_j46454366273712_2_alg».proof.Proof.LibDenseTanh

set_option maxRecDepth 16384

noncomputable section

namespace Cert.KernelIdeal.VehicleJoin

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- One row of the tile's result against the same row of the host's joined array. -/
theorem pay_rows (x0 : FVec Ideal S5000x8 .f32) (xp : FVec Ideal S5000x16 .f32) (x2 : FVec Ideal S8x16 .f32)
    (x3 : FVec Ideal S1x16 .f32)
    (a1 : FVec Ideal S50000x8 .f32) (a2 : FVec Ideal S100000x10 .f32) (a3 a4 : (⟨S400000, .i32⟩ : BufTy).Contents (Elt Ideal))
    (a9 : FVec Ideal S8x16 .f32) (a10 : FVec Ideal S16 .f32) (a11 : FVec Ideal S10x16 .f32) (a12 : FVec Ideal S16 .f32)
    (p : Fin 5000) (p' : Fin 50000) (q : Fin 32)
    (hx : ∀ k : Fin 8, x0 (ix2 p k) = a1 (ix2 p' k))
    (hp : ∀ k : Fin 16, xp (ix2 p k) = Cert.ReferenceIdeal.Read.val_main_v32 (F := Ideal) a2 a3 a4 a11 a12 (ix2 p' k))
    (hw : x2 = a9) (hb : ∀ j : Fin 16, x3 (ix2 (0 : Fin 1) j) = a10 (ix1 j)) :
    k1_pay1 (F := Ideal) x0 x2 x3 xp (ix2 p q)
      = Cert.ReferenceIdeal.Read.val_main_v33 (F := Ideal) a1 a2 a3 a4 a9 a10 a11 a12 (ix2 p' q) := by
  subst hw
  unfold k1_pay1 Cert.ReferenceIdeal.Read.val_main_v33
  refine DenseTanh.concat_rows (by norm_num : (32 : ℕ) = 16 + 16) _ _ _ _ _ _ p p' (fun k => ?_) (fun k => ?_) q
  · unfold Cert.ReferenceIdeal.Read.val_main_v9 Cert.ReferenceIdeal.Read.val_main_v8 Cert.ReferenceIdeal.Read.val_main_v7 Cert.ReferenceIdeal.Read.val_main_v6 Cert.ReferenceIdeal.Read.val_main_v5
    exact DenseTanh.tanhAffine_rows _ _ none none x0 a1 x2 _ _ x3 a10 _ _ _ _ p p' hx hb k
  · rw [shapeCast_self]
    exact hp k

theorem hz : (![0, 0] : Fin 2 → Nat) = fun _ => 0 := funext fun a => by fin_cases a <;> rfl

/-- The printed index maps over the grid: the two row tiles and the output's move with the point, the weights and the
    bias stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every row tile of the output is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

variable (V : (c : Dev nD) → (b : Ref sig .tc) → Buf (Elt Ideal) ((c : Thread nD τ).loc b))

/-- WHAT POINT `t` WRITES BACK is its tile of the host's joined array. -/
theorem flushed_eq (c : Dev nD)
    (a1 : FVec Ideal S50000x8 .f32) (a2 : FVec Ideal S100000x10 .f32) (a3 a4 : (⟨S400000, .i32⟩ : BufTy).Contents (Elt Ideal))
    (a9 : FVec Ideal S8x16 .f32) (a10 : FVec Ideal S16 .f32) (a11 : FVec Ideal S10x16 .f32) (a12 : FVec Ideal S16 .f32)
    (h1 : V c main_arg1 = a1) (h19 : V c main_v19 = Cert.ReferenceIdeal.Read.val_main_v32 (F := Ideal) a2 a3 a4 a11 a12)
    (h9 : V c main_arg9 = a9) (h20 : ∀ j : Fin 16, V c main_v20 (ix2 (0 : Fin 1) j) = a10 (ix1 j)) (t : Fin cfg1.N) :
    (dat1 V c).flushed 4 t
      = ((cfg1.win 4).blk t).view.read (Elt Ideal) (Cert.ReferenceIdeal.Read.val_main_v33 (F := Ideal) a1 a2 a3 a4 a9 a10 a11 a12) := by
  show (cfg1.win 4).cut (grid1.coords t) ((dat1 V c).after 4 t) = _
  rw [after1_4]
  unfold out1_4
  rw [View.canon_unit_zero hz]
  simp only [View.ld_unit_zero (S := S5000x8) hz, View.ld_unit_zero (S := S5000x16) hz, View.ld_unit_zero (S := S8x16) hz,
    View.ld_unit_zero (S := S1x16) hz]
  funext j
  obtain ⟨p, q, rfl⟩ : ∃ (p : Fin 5000) (q : Fin 32), j = ix2 p q := ⟨j 0, j 1, eq_ix2 j⟩
  have htN : t.val < 10 := lt_of_lt_of_eq (show t.val < grid1.N from t.isLt) N_1
  have hp := p.isLt
  obtain ⟨e0, e1, e2, e3, e4, e5, e6, e7, e8, e9⟩ := idx_facts t
  have hemb : ((cfg1.win 4).blk t).view.emb (ix2 p q) = ix2 (⟨t.val * 5000 + p.val, by omega⟩ : Fin 50000) q := by
    funext a; apply Fin.ext
    match a with
    | ⟨0, _⟩ => show win1_4.index t (0 : Fin 2) * 5000 + 1 * p.val = t.val * 5000 + p.val; omega
    | ⟨1, _⟩ => show win1_4.index t (1 : Fin 2) * 32 + 1 * q.val = q.val; omega
  show k1_pay1 (iblk1 V c 0 t) (iblk1 V c 2 t) (iblk1 V c 3 t) (iblk1 V c 1 t) (ix2 p q)
    = Cert.ReferenceIdeal.Read.val_main_v33 (F := Ideal) a1 a2 a3 a4 a9 a10 a11 a12 (((cfg1.win 4).blk t).view.emb (ix2 p q))
  rw [hemb]
  refine pay_rows (iblk1 V c 0 t) (iblk1 V c 1 t) (iblk1 V c 2 t) (iblk1 V c 3 t) a1 a2 a3 a4 a9 a10 a11 a12 p _ q
    (fun k => ?_) (fun k => ?_) ?_ (fun j => ?_)
  · show V c main_arg1 (((cfg1.win 0).blk t).view.emb (ix2 p k)) = _
    rw [h1]
    refine congrArg a1 (funext fun a => Fin.ext ?_)
    match a with
    | ⟨0, _⟩ => show win1_0.index t (0 : Fin 2) * 5000 + 1 * p.val = t.val * 5000 + p.val; omega
    | ⟨1, _⟩ => show win1_0.index t (1 : Fin 2) * 8 + 1 * k.val = k.val; omega
  · show V c main_v19 (((cfg1.win 1).blk t).view.emb (ix2 p k)) = _
    rw [h19]
    refine congrArg (Cert.ReferenceIdeal.Read.val_main_v32 (F := Ideal) a2 a3 a4 a11 a12) (funext fun a => Fin.ext ?_)
    match a with
    | ⟨0, _⟩ => show win1_1.index t (0 : Fin 2) * 5000 + 1 * p.val = t.val * 5000 + p.val; omega
    | ⟨1, _⟩ => show win1_1.index t (1 : Fin 2) * 16 + 1 * k.val = k.val; omega
  · funext i
    obtain ⟨r, s, rfl⟩ : ∃ (r : Fin 8) (s : Fin 16), i = ix2 r s := ⟨i 0, i 1, eq_ix2 i⟩
    show V c main_arg9 (((cfg1.win 2).blk t).view.emb (ix2 r s)) = _
    rw [h9]
    refine congrArg a9 (funext fun a => Fin.ext ?_)
    match a with
    | ⟨0, _⟩ => show win1_2.index t (0 : Fin 2) * 8 + 1 * r.val = r.val; omega
    | ⟨1, _⟩ => show win1_2.index t (1 : Fin 2) * 16 + 1 * s.val = s.val; omega
  · show V c main_v20 (((cfg1.win 3).blk t).view.emb (ix2 (0 : Fin 1) j)) = _
    rw [← h20 j]
    refine congrArg (V c main_v20) (funext fun a => Fin.ext ?_)
    match a with
    | ⟨0, _⟩ => show win1_3.index t (0 : Fin 2) * 1 + 1 * 0 = 0; omega
    | ⟨1, _⟩ => show win1_3.index t (1 : Fin 2) * 16 + 1 * j.val = j.val; omega

/-- An index of the output array is in point `t`'s tile iff each coordinate is in the tile's range on its axis. -/
theorem mem_blk (t : Fin cfg1.N) (i : S50000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v21).slice (win1_4.rect t)).set ↔ _
  rw [View.set_slice_whole, Rect.mem_set_unit]
  exact Iff.rfl

/-- The tiles cover the output array: row `r` lies in the tile of point `r / 5000`. -/
theorem cover (i : S50000x32.Idx) :
    ∃ t : Fin cfg1.N, (cfg1.win 4).flush t = true ∧ i ∈ ((cfg1.win 4).blk t).view.set := by
  have hi0 : (i 0).val < 50000 := (i 0).isLt
  have hi1 : (i 1).val < 32 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 32 ≤ (i 1).val ∧ (i 1).val < win1_4.index t (1 : Fin 2) * 32 + 32; omega

/-- THE OUTPUT ARRAY after region 1: the host's vehicle encoder joined with the pooled passenger features. -/
theorem final (c : Dev nD)
    (a1 : FVec Ideal S50000x8 .f32) (a2 : FVec Ideal S100000x10 .f32) (a3 a4 : (⟨S400000, .i32⟩ : BufTy).Contents (Elt Ideal))
    (a9 : FVec Ideal S8x16 .f32) (a10 : FVec Ideal S16 .f32) (a11 : FVec Ideal S10x16 .f32) (a12 : FVec Ideal S16 .f32)
    (h1 : V c main_arg1 = a1) (h19 : V c main_v19 = Cert.ReferenceIdeal.Read.val_main_v32 (F := Ideal) a2 a3 a4 a11 a12)
    (h9 : V c main_arg9 = a9) (h20 : ∀ j : Fin 16, V c main_v20 (ix2 (0 : Fin 1) j) = a10 (ix1 j)) :
    (dat1 V c).arrAt 4 cfg1.N = Cert.ReferenceIdeal.Read.val_main_v33 (F := Ideal) a1 a2 a3 a4 a9 a10 a11 a12 :=
  (dat1 V c).arrAt_eq_of_cover 4 _ (fun t _ => flushed_eq V c a1 a2 a3 a4 a9 a10 a11 a12 h1 h19 h9 h20 t) cover

end Cert.KernelIdeal.VehicleJoin

end
-- ==== Proof.Actor.lean ====
/-
  Region 2, the fused actor: a grid of 40 points, point `t` taking rows `5000·t … 5000·t + 4999` of the request
  features and of the pooled vehicle array, with every weight matrix and bias row whole, and writing back to the same
  rows of the one-column output
      `tanh (tanh ([tanh (x · W_req + b_req) | pooled] · W1 + b1) · W2 + b2) · W3 + b3`.
  Row by row this is the host's chain on the whole arrays, one layer after the other: a layer's row is a function of
  the previous layer's same row only (the same products summed in the same order, the bias row's entry `(0, j)` the
  bias vector's entry `j`, one hyperbolic tangent on the extended reals; the roundings to a narrower format in front
  of each product are the identity there), and the joined row is the encoder's row followed by the pooled row. The
  tiles cover the array.
-/
import proofs.«144995_j46454366273712_2_alg».proof.Proof.Gen.KernelIdeal.Frame
import proofs.«144995_j46454366273712_2_alg».proof.Proof.Gen.ReferenceIdeal.Read
import proofs.«144995_j46454366273712_2_alg».proof.Proof.LibDenseTanh

set_option maxRecDepth 16384

noncomputable section

namespace Cert.KernelIdeal.Actor

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- One row of the tile's result against the same row of the host's chain on the whole arrays. -/
theorem pay_rows (x0 : FVec Ideal S5000x10 .f32) (xa : FVec Ideal S5000x32 .f32) (wq : FVec Ideal S10x16 .f32)
    (bq : FVec Ideal S1x16 .f32) (w1 : FVec Ideal S48x64 .f32) (b1 : FVec Ideal S1x64 .f32) (w2 : FVec Ideal S64x64 .f32)
    (b2 : FVec Ideal S1x64 .f32) (w3 : FVec Ideal S64x1 .f32) (b3 : FVec Ideal S1x1 .f32)
    (a0 : FVec Ideal S200000x10 .f32) (a1 : FVec Ideal S50000x8 .f32) (a2 : FVec Ideal S100000x10 .f32)
    (a3 a4 : (⟨S400000, .i32⟩ : BufTy).Contents (Elt Ideal)) (a5 a6 : (⟨S4000000, .i32⟩ : BufTy).Contents (Elt Ideal))
    (a7 : FVec Ideal S10x16 .f32) (a8 : FVec Ideal S16 .f32) (a9 : FVec Ideal S8x16 .f32) (a10 : FVec Ideal S16 .f32)
    (a11 : FVec Ideal S10x16 .f32) (a12 : FVec Ideal S16 .f32) (a13 : FVec Ideal S48x64 .f32) (a14 : FVec Ideal S64 .f32)
    (a15 : FVec Ideal S64x64 .f32) (a16 : FVec Ideal S64 .f32) (a17 : FVec Ideal S64x1 .f32) (a18 : FVec Ideal S1 .f32)
    (p : Fin 5000) (p' : Fin 200000) (q : Fin 1)
    (hx : ∀ k : Fin 10, x0 (ix2 p k) = a0 (ix2 p' k))
    (ha : ∀ k : Fin 32, xa (ix2 p k) = Cert.ReferenceIdeal.Read.val_main_v51 (F := Ideal) a1 a2 a3 a4 a5 a6 a9 a10 a11 a12 (ix2 p' k))
    (hwq : wq = a7) (hw1 : w1 = a13) (hw2 : w2 = a15) (hw3 : w3 = a17)
    (hbq : ∀ j : Fin 16, bq (ix2 (0 : Fin 1) j) = a8 (ix1 j))
    (hb1 : ∀ j : Fin 64, b1 (ix2 (0 : Fin 1) j) = a14 (ix1 j))
    (hb2 : ∀ j : Fin 64, b2 (ix2 (0 : Fin 1) j) = a16 (ix1 j))
    (hb3 : ∀ j : Fin 1, b3 (ix2 (0 : Fin 1) j) = a18 (ix1 j)) :
    k2_pay1 (F := Ideal) (k2_pay2 (F := Ideal) x0 wq bq xa w1 b1 w2 b2 w3) b3 (ix2 p q)
      = Cert.ReferenceIdeal.Read.val_main_v66 (F := Ideal) a0 a1 a2 a3 a4 a5 a6 a7 a8 a9 a10 a11 a12 a13 a14 a15 a16 a17 a18 (ix2 p' q) := by
  subst hwq hw1 hw2 hw3
  unfold k2_pay1 k2_pay2 Cert.ReferenceIdeal.Read.val_main_v66 Cert.ReferenceIdeal.Read.val_main_v65 Cert.ReferenceIdeal.Read.val_main_v64 Cert.ReferenceIdeal.Read.val_main_v63 Cert.ReferenceIdeal.Read.val_main_v62 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_v56 Cert.ReferenceIdeal.Read.val_main_v55 Cert.ReferenceIdeal.Read.val_main_v54 Cert.ReferenceIdeal.Read.val_main_v53 Cert.ReferenceIdeal.Read.val_main_v52 Cert.ReferenceIdeal.Read.val_main_v4 Cert.ReferenceIdeal.Read.val_main_v3 Cert.ReferenceIdeal.Read.val_main_v2 Cert.ReferenceIdeal.Read.val_main_v1 Cert.ReferenceIdeal.Read.val_main_v0
  refine DenseTanh.affine_rows _ _ none none _ _ w3 _ _ b3 a18 _ _ _ _ p p' (fun k => ?_) hb3 q
  refine DenseTanh.tanhAffine_rows _ _ none none _ _ w2 _ _ b2 a16 _ _ _ _ p p' (fun k => ?_) hb2 k
  refine DenseTanh.tanhAffine_rows _ _ none none _ _ w1 _ _ b1 a14 _ _ _ _ p p' (fun k => ?_) hb1 k
  refine DenseTanh.concat_rows (by norm_num : (48 : ℕ) = 16 + 32) _ _ _ _ _ _ p p' (fun k => ?_) (fun k => ?_) k
  · exact DenseTanh.tanhAffine_rows _ _ none none x0 a0 wq _ _ bq a8 _ _ _ _ p p' hx hbq k
  · rw [shapeCast_self]
    exact ha k

theorem hz : (![0, 0] : Fin 2 → Nat) = fun _ => 0 := funext fun a => by fin_cases a <;> rfl

/-- The printed index maps over the grid: the two row tiles and the output's move with the point, the weights and the
    bias rows stay. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

/-- Every row tile of the output is some point's. -/
theorem idx_onto : ∀ q0 : Fin 40, ∃ t : Fin cfg2.N, win2_10.index t = ![q0.val, 0] :=
  (by decide +kernel : ∀ q0 : Fin 40, ∃ t : Fin grid2.N, win2_10.index t = ![q0.val, 0])

variable (V : (c : Dev nD) → (b : Ref sig .tc) → Buf (Elt Ideal) ((c : Thread nD τ).loc b))

set_option maxHeartbeats 4000000 in
/-- WHAT POINT `t` WRITES BACK is its tile of the host's chain on the whole arrays. -/
theorem flushed_eq (c : Dev nD)
    (a0 : FVec Ideal S200000x10 .f32) (a1 : FVec Ideal S50000x8 .f32) (a2 : FVec Ideal S100000x10 .f32)
    (a3 a4 : (⟨S400000, .i32⟩ : BufTy).Contents (Elt Ideal)) (a5 a6 : (⟨S4000000, .i32⟩ : BufTy).Contents (Elt Ideal))
    (a7 : FVec Ideal S10x16 .f32) (a8 : FVec Ideal S16 .f32) (a9 : FVec Ideal S8x16 .f32) (a10 : FVec Ideal S16 .f32)
    (a11 : FVec Ideal S10x16 .f32) (a12 : FVec Ideal S16 .f32) (a13 : FVec Ideal S48x64 .f32) (a14 : FVec Ideal S64 .f32)
    (a15 : FVec Ideal S64x64 .f32) (a16 : FVec Ideal S64 .f32) (a17 : FVec Ideal S64x1 .f32) (a18 : FVec Ideal S1 .f32)
    (h0 : V c main_arg0 = a0) (h39 : V c main_v39 = Cert.ReferenceIdeal.Read.val_main_v51 (F := Ideal) a1 a2 a3 a4 a5 a6 a9 a10 a11 a12)
    (h7 : V c main_arg7 = a7) (h13 : V c main_arg13 = a13) (h15 : V c main_arg15 = a15) (h17 : V c main_arg17 = a17)
    (h40 : ∀ j : Fin 16, V c main_v40 (ix2 (0 : Fin 1) j) = a8 (ix1 j))
    (h41 : ∀ j : Fin 64, V c main_v41 (ix2 (0 : Fin 1) j) = a14 (ix1 j))
    (h42 : ∀ j : Fin 64, V c main_v42 (ix2 (0 : Fin 1) j) = a16 (ix1 j))
    (h43 : ∀ j : Fin 1, V c main_v43 (ix2 (0 : Fin 1) j) = a18 (ix1 j)) (t : Fin cfg2.N) :
    (dat2 V c).flushed 10 t = ((cfg2.win 10).blk t).view.read (Elt Ideal) (Cert.ReferenceIdeal.Read.val_main_v66 (F := Ideal) a0 a1 a2 a3 a4 a5 a6 a7 a8 a9 a10 a11 a12 a13 a14 a15 a16 a17 a18) := by
  show (cfg2.win 10).cut (grid2.coords t) ((dat2 V c).after 10 t) = _
  rw [after2_10]
  unfold out2_10
  rw [View.canon_unit_zero hz]
  simp only [View.ld_unit_zero (S := S5000x10) hz, View.ld_unit_zero (S := S5000x32) hz, View.ld_unit_zero (S := S10x16) hz,
    View.ld_unit_zero (S := S1x16) hz, View.ld_unit_zero (S := S48x64) hz, View.ld_unit_zero (S := S1x64) hz,
    View.ld_unit_zero (S := S64x64) hz, View.ld_unit_zero (S := S64x1) hz, View.ld_unit_zero (S := S1x1) hz]
  funext j
  obtain ⟨p, q, rfl⟩ : ∃ (p : Fin 5000) (q : Fin 1), j = ix2 p q := ⟨j 0, j 1, eq_ix2 j⟩
  have htN : t.val < 40 := lt_of_lt_of_eq (show t.val < grid2.N from t.isLt) N_2
  have hp := p.isLt
  have hq := q.isLt
  obtain ⟨e0, e0', e1, e1', e2, e2', e3, e3', e4, e4', e5, e5', e6, e6', e7, e7', e8, e8', e9, e9', e10, e10'⟩ := idx_facts t
  have hemb : ((cfg2.win 10).blk t).view.emb (ix2 p q) = ix2 (⟨t.val * 5000 + p.val, by omega⟩ : Fin 200000) q := by
    funext a; apply Fin.ext
    match a with
    | ⟨0, _⟩ => show win2_10.index t (0 : Fin 2) * 5000 + 1 * p.val = t.val * 5000 + p.val; omega
    | ⟨1, _⟩ => show win2_10.index t (1 : Fin 2) * 1 + 1 * q.val = q.val; omega
  show k2_pay1 (k2_pay2 (iblk2 V c 0 t) (iblk2 V c 2 t) (iblk2 V c 3 t) (iblk2 V c 1 t) (iblk2 V c 4 t) (iblk2 V c 5 t)
      (iblk2 V c 6 t) (iblk2 V c 7 t) (iblk2 V c 8 t)) (iblk2 V c 9 t) (ix2 p q)
    = Cert.ReferenceIdeal.Read.val_main_v66 (F := Ideal) a0 a1 a2 a3 a4 a5 a6 a7 a8 a9 a10 a11 a12 a13 a14 a15 a16 a17 a18 (((cfg2.win 10).blk t).view.emb (ix2 p q))
  rw [hemb]
  refine pay_rows (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) a0 a1 a2 a3 a4 a5 a6 a7 a8 a9 a10 a11 a12 a13 a14 a15 a16 a17 a18 p _ q
    (fun k => ?_) (fun k => ?_) ?_ ?_ ?_ ?_ (fun j => ?_) (fun j => ?_) (fun j => ?_) (fun j => ?_)
  · show V c main_arg0 (((cfg2.win 0).blk t).view.emb (ix2 p k)) = _
    rw [h0]
    refine congrArg a0 (funext fun a => Fin.ext ?_)
    match a with
    | ⟨0, _⟩ => show win2_0.index t (0 : Fin 2) * 5000 + 1 * p.val = t.val * 5000 + p.val; omega
    | ⟨1, _⟩ => show win2_0.index t (1 : Fin 2) * 10 + 1 * k.val = k.val; omega
  · show V c main_v39 (((cfg2.win 1).blk t).view.emb (ix2 p k)) = _
    rw [h39]
    refine congrArg (Cert.ReferenceIdeal.Read.val_main_v51 (F := Ideal) a1 a2 a3 a4 a5 a6 a9 a10 a11 a12) (funext fun a => Fin.ext ?_)
    match a with
    | ⟨0, _⟩ => show win2_1.index t (0 : Fin 2) * 5000 + 1 * p.val = t.val * 5000 + p.val; omega
    | ⟨1, _⟩ => show win2_1.index t (1 : Fin 2) * 32 + 1 * k.val = k.val; omega
  · funext i
    obtain ⟨r, s, rfl⟩ : ∃ (r : Fin 10) (s : Fin 16), i = ix2 r s := ⟨i 0, i 1, eq_ix2 i⟩
    show V c main_arg7 (((cfg2.win 2).blk t).view.emb (ix2 r s)) = _
    rw [h7]
    refine congrArg a7 (funext fun a => Fin.ext ?_)
    match a with
    | ⟨0, _⟩ => show win2_2.index t (0 : Fin 2) * 10 + 1 * r.val = r.val; omega
    | ⟨1, _⟩ => show win2_2.index t (1 : Fin 2) * 16 + 1 * s.val = s.val; omega
  · funext i
    obtain ⟨r, s, rfl⟩ : ∃ (r : Fin 48) (s : Fin 64), i = ix2 r s := ⟨i 0, i 1, eq_ix2 i⟩
    show V c main_arg13 (((cfg2.win 4).blk t).view.emb (ix2 r s)) = _
    rw [h13]
    refine congrArg a13 (funext fun a => Fin.ext ?_)
    match a with
    | ⟨0, _⟩ => show win2_4.index t (0 : Fin 2) * 48 + 1 * r.val = r.val; omega
    | ⟨1, _⟩ => show win2_4.index t (1 : Fin 2) * 64 + 1 * s.val = s.val; omega
  · funext i
    obtain ⟨r, s, rfl⟩ : ∃ (r : Fin 64) (s : Fin 64), i = ix2 r s := ⟨i 0, i 1, eq_ix2 i⟩
    show V c main_arg15 (((cfg2.win 6).blk t).view.emb (ix2 r s)) = _
    rw [h15]
    refine congrArg a15 (funext fun a => Fin.ext ?_)
    match a with
    | ⟨0, _⟩ => show win2_6.index t (0 : Fin 2) * 64 + 1 * r.val = r.val; omega
    | ⟨1, _⟩ => show win2_6.index t (1 : Fin 2) * 64 + 1 * s.val = s.val; omega
  · funext i
    obtain ⟨r, s, rfl⟩ : ∃ (r : Fin 64) (s : Fin 1), i = ix2 r s := ⟨i 0, i 1, eq_ix2 i⟩
    show V c main_arg17 (((cfg2.win 8).blk t).view.emb (ix2 r s)) = _
    rw [h17]
    refine congrArg a17 (funext fun a => Fin.ext ?_)
    match a with
    | ⟨0, _⟩ => show win2_8.index t (0 : Fin 2) * 64 + 1 * r.val = r.val; omega
    | ⟨1, _⟩ => show win2_8.index t (1 : Fin 2) * 1 + 1 * s.val = s.val; omega
  · show V c main_v40 (((cfg2.win 3).blk t).view.emb (ix2 (0 : Fin 1) j)) = _
    rw [← h40 j]
    refine congrArg (V c main_v40) (funext fun a => Fin.ext ?_)
    match a with
    | ⟨0, _⟩ => show win2_3.index t (0 : Fin 2) * 1 + 1 * 0 = 0; omega
    | ⟨1, _⟩ => show win2_3.index t (1 : Fin 2) * 16 + 1 * j.val = j.val; omega
  · show V c main_v41 (((cfg2.win 5).blk t).view.emb (ix2 (0 : Fin 1) j)) = _
    rw [← h41 j]
    refine congrArg (V c main_v41) (funext fun a => Fin.ext ?_)
    match a with
    | ⟨0, _⟩ => show win2_5.index t (0 : Fin 2) * 1 + 1 * 0 = 0; omega
    | ⟨1, _⟩ => show win2_5.index t (1 : Fin 2) * 64 + 1 * j.val = j.val; omega
  · show V c main_v42 (((cfg2.win 7).blk t).view.emb (ix2 (0 : Fin 1) j)) = _
    rw [← h42 j]
    refine congrArg (V c main_v42) (funext fun a => Fin.ext ?_)
    match a with
    | ⟨0, _⟩ => show win2_7.index t (0 : Fin 2) * 1 + 1 * 0 = 0; omega
    | ⟨1, _⟩ => show win2_7.index t (1 : Fin 2) * 64 + 1 * j.val = j.val; omega
  · show V c main_v43 (((cfg2.win 9).blk t).view.emb (ix2 (0 : Fin 1) j)) = _
    rw [← h43 j]
    refine congrArg (V c main_v43) (funext fun a => Fin.ext ?_)
    match a with
    | ⟨0, _⟩ => show win2_9.index t (0 : Fin 2) * 1 + 1 * 0 = 0; omega
    | ⟨1, _⟩ => show win2_9.index t (1 : Fin 2) * 1 + 1 * j.val = j.val; omega

/-- An index of the output array is in point `t`'s tile iff each coordinate is in the tile's range on its axis. -/
theorem mem_blk (t : Fin cfg2.N) (i : S200000x1.Idx) :
    i ∈ ((cfg2.win 10).blk t).view.set ↔ ∀ a : Fin 2, win2_10.index t a * S5000x1.size a ≤ (i a).val
      ∧ (i a).val < win2_10.index t a * S5000x1.size a + S5000x1.size a := by
  show i ∈ ((View.whole main_v44).slice (win2_10.rect t)).set ↔ _
  rw [View.set_slice_whole, Rect.mem_set_unit]
  exact Iff.rfl

/-- The tiles cover the output array: row `r` lies in the tile of point `r / 5000`. -/
theorem cover (i : S200000x1.Idx) :
    ∃ t : Fin cfg2.N, (cfg2.win 10).flush t = true ∧ i ∈ ((cfg2.win 10).blk t).view.set := by
  have hi0 : (i 0).val < 200000 := (i 0).isLt
  have hi1 : (i 1).val < 1 := (i 1).isLt
  obtain ⟨t, ht⟩ := idx_onto ⟨(i 0).val / 5000, by omega⟩
  have q0 : win2_10.index t (0 : Fin 2) = (i 0).val / 5000 := congrFun ht 0
  have q1 : win2_10.index t (1 : Fin 2) = 0 := congrFun ht 1
  refine ⟨t, flush2_10 t, ?_⟩
  rw [mem_blk]
  intro a
  match a with
  | ⟨0, _⟩ => show win2_10.index t (0 : Fin 2) * 5000 ≤ (i 0).val ∧ (i 0).val < win2_10.index t (0 : Fin 2) * 5000 + 5000; omega
  | ⟨1, _⟩ => show win2_10.index t (1 : Fin 2) * 1 ≤ (i 1).val ∧ (i 1).val < win2_10.index t (1 : Fin 2) * 1 + 1; omega

/-- THE OUTPUT ARRAY after region 2: the host's chain on the whole arrays. -/
theorem final (c : Dev nD)
    (a0 : FVec Ideal S200000x10 .f32) (a1 : FVec Ideal S50000x8 .f32) (a2 : FVec Ideal S100000x10 .f32)
    (a3 a4 : (⟨S400000, .i32⟩ : BufTy).Contents (Elt Ideal)) (a5 a6 : (⟨S4000000, .i32⟩ : BufTy).Contents (Elt Ideal))
    (a7 : FVec Ideal S10x16 .f32) (a8 : FVec Ideal S16 .f32) (a9 : FVec Ideal S8x16 .f32) (a10 : FVec Ideal S16 .f32)
    (a11 : FVec Ideal S10x16 .f32) (a12 : FVec Ideal S16 .f32) (a13 : FVec Ideal S48x64 .f32) (a14 : FVec Ideal S64 .f32)
    (a15 : FVec Ideal S64x64 .f32) (a16 : FVec Ideal S64 .f32) (a17 : FVec Ideal S64x1 .f32) (a18 : FVec Ideal S1 .f32)
    (h0 : V c main_arg0 = a0) (h39 : V c main_v39 = Cert.ReferenceIdeal.Read.val_main_v51 (F := Ideal) a1 a2 a3 a4 a5 a6 a9 a10 a11 a12)
    (h7 : V c main_arg7 = a7) (h13 : V c main_arg13 = a13) (h15 : V c main_arg15 = a15) (h17 : V c main_arg17 = a17)
    (h40 : ∀ j : Fin 16, V c main_v40 (ix2 (0 : Fin 1) j) = a8 (ix1 j))
    (h41 : ∀ j : Fin 64, V c main_v41 (ix2 (0 : Fin 1) j) = a14 (ix1 j))
    (h42 : ∀ j : Fin 64, V c main_v42 (ix2 (0 : Fin 1) j) = a16 (ix1 j))
    (h43 : ∀ j : Fin 1, V c main_v43 (ix2 (0 : Fin 1) j) = a18 (ix1 j)) :
    (dat2 V c).arrAt 10 cfg2.N = Cert.ReferenceIdeal.Read.val_main_v66 (F := Ideal) a0 a1 a2 a3 a4 a5 a6 a7 a8 a9 a10 a11 a12 a13 a14 a15 a16 a17 a18 :=
  (dat2 V c).arrAt_eq_of_cover 10 _ (fun t _ => flushed_eq V c a0 a1 a2 a3 a4 a5 a6 a7 a8 a9 a10 a11 a12 a13 a14 a15 a16 a17 a18 h0 h39 h7 h13 h15 h17 h40 h41 h42 h43 t) cover

end Cert.KernelIdeal.Actor

end
-- ==== Proof.Result.lean ====
/-
  The result array of the idealized kernel's run, read back through @main: the three regions' output arrays are the
  host's stages of the argument arrays (each region's tiles cover its output, and a tile's rows are the host stage's
  rows), and the two stretches of host operations between the regions — the index normalisation, the row gather, the
  two scatter-adds, the clamp of the counts at one and the quotient — are, operation for operation, the host
  reference's own, applied to the previous region's output. So the last boundary's contents at the result array are
  the reference's last stage of the launch memory's argument arrays.
-/
import proofs.«144995_j46454366273712_2_alg».proof.Proof.Encoder
import proofs.«144995_j46454366273712_2_alg».proof.Proof.VehicleJoin
import proofs.«144995_j46454366273712_2_alg».proof.Proof.Actor
import Idealize.ShloMosaic.Lib.ValueLayout
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The argument arrays at each boundary: no host operation and no region writes one -/

theorem W1_arg0 : W1 m ρ c (Proc.devRef .tc main_arg0) = (m ((c : Thread nD τ).loc main_arg0)) := by
  show StableHlo.after hostOps0 (W0 m ρ c) (Proc.devRef .tc main_arg0) = _
  after_results <;> rfl
theorem W1_arg1 : W1 m ρ c (Proc.devRef .tc main_arg1) = (m ((c : Thread nD τ).loc main_arg1)) := by
  show StableHlo.after hostOps0 (W0 m ρ c) (Proc.devRef .tc main_arg1) = _
  after_results <;> rfl
theorem W1_arg2 : W1 m ρ c (Proc.devRef .tc main_arg2) = (m ((c : Thread nD τ).loc main_arg2)) := by
  show StableHlo.after hostOps0 (W0 m ρ c) (Proc.devRef .tc main_arg2) = _
  after_results <;> rfl
theorem W1_arg3 : W1 m ρ c (Proc.devRef .tc main_arg3) = (m ((c : Thread nD τ).loc main_arg3)) := by
  show StableHlo.after hostOps0 (W0 m ρ c) (Proc.devRef .tc main_arg3) = _
  after_results <;> rfl
theorem W1_arg4 : W1 m ρ c (Proc.devRef .tc main_arg4) = (m ((c : Thread nD τ).loc main_arg4)) := by
  show StableHlo.after hostOps0 (W0 m ρ c) (Proc.devRef .tc main_arg4) = _
  after_results <;> rfl
theorem W1_arg5 : W1 m ρ c (Proc.devRef .tc main_arg5) = (m ((c : Thread nD τ).loc main_arg5)) := by
  show StableHlo.after hostOps0 (W0 m ρ c) (Proc.devRef .tc main_arg5) = _
  after_results <;> rfl
theorem W1_arg6 : W1 m ρ c (Proc.devRef .tc main_arg6) = (m ((c : Thread nD τ).loc main_arg6)) := by
  show StableHlo.after hostOps0 (W0 m ρ c) (Proc.devRef .tc main_arg6) = _
  after_results <;> rfl
theorem W1_arg7 : W1 m ρ c (Proc.devRef .tc main_arg7) = (m ((c : Thread nD τ).loc main_arg7)) := by
  show StableHlo.after hostOps0 (W0 m ρ c) (Proc.devRef .tc main_arg7) = _
  after_results <;> rfl
theorem W1_arg8 : W1 m ρ c (Proc.devRef .tc main_arg8) = (m ((c : Thread nD τ).loc main_arg8)) := by
  show StableHlo.after hostOps0 (W0 m ρ c) (Proc.devRef .tc main_arg8) = _
  after_results <;> rfl
theorem W1_arg9 : W1 m ρ c (Proc.devRef .tc main_arg9) = (m ((c : Thread nD τ).loc main_arg9)) := by
  show StableHlo.after hostOps0 (W0 m ρ c) (Proc.devRef .tc main_arg9) = _
  after_results <;> rfl
theorem W1_arg10 : W1 m ρ c (Proc.devRef .tc main_arg10) = (m ((c : Thread nD τ).loc main_arg10)) := by
  show StableHlo.after hostOps0 (W0 m ρ c) (Proc.devRef .tc main_arg10) = _
  after_results <;> rfl
theorem W1_arg11 : W1 m ρ c (Proc.devRef .tc main_arg11) = (m ((c : Thread nD τ).loc main_arg11)) := by
  show StableHlo.after hostOps0 (W0 m ρ c) (Proc.devRef .tc main_arg11) = _
  after_results <;> rfl
theorem W1_arg13 : W1 m ρ c (Proc.devRef .tc main_arg13) = (m ((c : Thread nD τ).loc main_arg13)) := by
  show StableHlo.after hostOps0 (W0 m ρ c) (Proc.devRef .tc main_arg13) = _
  after_results <;> rfl
theorem W1_arg14 : W1 m ρ c (Proc.devRef .tc main_arg14) = (m ((c : Thread nD τ).loc main_arg14)) := by
  show StableHlo.after hostOps0 (W0 m ρ c) (Proc.devRef .tc main_arg14) = _
  after_results <;> rfl
theorem W1_arg15 : W1 m ρ c (Proc.devRef .tc main_arg15) = (m ((c : Thread nD τ).loc main_arg15)) := by
  show StableHlo.after hostOps0 (W0 m ρ c) (Proc.devRef .tc main_arg15) = _
  after_results <;> rfl
theorem W1_arg16 : W1 m ρ c (Proc.devRef .tc main_arg16) = (m ((c : Thread nD τ).loc main_arg16)) := by
  show StableHlo.after hostOps0 (W0 m ρ c) (Proc.devRef .tc main_arg16) = _
  after_results <;> rfl
theorem W1_arg17 : W1 m ρ c (Proc.devRef .tc main_arg17) = (m ((c : Thread nD τ).loc main_arg17)) := by
  show StableHlo.after hostOps0 (W0 m ρ c) (Proc.devRef .tc main_arg17) = _
  after_results <;> rfl
theorem W1_arg18 : W1 m ρ c (Proc.devRef .tc main_arg18) = (m ((c : Thread nD τ).loc main_arg18)) := by
  show StableHlo.after hostOps0 (W0 m ρ c) (Proc.devRef .tc main_arg18) = _
  after_results <;> rfl
theorem W2_arg1 : W2 m ρ c (Proc.devRef .tc main_arg1) = (m ((c : Thread nD τ).loc main_arg1)) :=
  (W2_of_ne m ρ c main_arg1 (by decide)).trans (W1_arg1 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg0 : W2 m ρ c (Proc.devRef .tc main_arg0) = (m ((c : Thread nD τ).loc main_arg0)) :=
  (W2_of_ne m ρ c main_arg0 (by decide)).trans (W1_arg0 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg13 : W2 m ρ c (Proc.devRef .tc main_arg13) = (m ((c : Thread nD τ).loc main_arg13)) :=
  (W2_of_ne m ρ c main_arg13 (by decide)).trans (W1_arg13 m ρ c)
theorem W2_arg14 : W2 m ρ c (Proc.devRef .tc main_arg14) = (m ((c : Thread nD τ).loc main_arg14)) :=
  (W2_of_ne m ρ c main_arg14 (by decide)).trans (W1_arg14 m ρ c)
theorem W2_arg15 : W2 m ρ c (Proc.devRef .tc main_arg15) = (m ((c : Thread nD τ).loc main_arg15)) :=
  (W2_of_ne m ρ c main_arg15 (by decide)).trans (W1_arg15 m ρ c)
theorem W2_arg16 : W2 m ρ c (Proc.devRef .tc main_arg16) = (m ((c : Thread nD τ).loc main_arg16)) :=
  (W2_of_ne m ρ c main_arg16 (by decide)).trans (W1_arg16 m ρ c)
theorem W2_arg17 : W2 m ρ c (Proc.devRef .tc main_arg17) = (m ((c : Thread nD τ).loc main_arg17)) :=
  (W2_of_ne m ρ c main_arg17 (by decide)).trans (W1_arg17 m ρ c)
theorem W2_arg18 : W2 m ρ c (Proc.devRef .tc main_arg18) = (m ((c : Thread nD τ).loc main_arg18)) :=
  (W2_of_ne m ρ c main_arg18 (by decide)).trans (W1_arg18 m ρ c)
theorem W3_arg1 : W3 m ρ c (Proc.devRef .tc main_arg1) = (m ((c : Thread nD τ).loc main_arg1)) := by
  show StableHlo.after hostOps1 (W2 m ρ c) (Proc.devRef .tc main_arg1) = _
  after_results
  exact W2_arg1 m ρ c
theorem W3_arg3 : W3 m ρ c (Proc.devRef .tc main_arg3) = (m ((c : Thread nD τ).loc main_arg3)) := by
  show StableHlo.after hostOps1 (W2 m ρ c) (Proc.devRef .tc main_arg3) = _
  after_results
  exact W2_arg3 m ρ c
theorem W3_arg4 : W3 m ρ c (Proc.devRef .tc main_arg4) = (m ((c : Thread nD τ).loc main_arg4)) := by
  show StableHlo.after hostOps1 (W2 m ρ c) (Proc.devRef .tc main_arg4) = _
  after_results
  exact W2_arg4 m ρ c
theorem W3_arg9 : W3 m ρ c (Proc.devRef .tc main_arg9) = (m ((c : Thread nD τ).loc main_arg9)) := by
  show StableHlo.after hostOps1 (W2 m ρ c) (Proc.devRef .tc main_arg9) = _
  after_results
  exact W2_arg9 m ρ c
theorem W3_arg10 : W3 m ρ c (Proc.devRef .tc main_arg10) = (m ((c : Thread nD τ).loc main_arg10)) := by
  show StableHlo.after hostOps1 (W2 m ρ c) (Proc.devRef .tc main_arg10) = _
  after_results
  exact W2_arg10 m ρ c
theorem W3_arg0 : W3 m ρ c (Proc.devRef .tc main_arg0) = (m ((c : Thread nD τ).loc main_arg0)) := by
  show StableHlo.after hostOps1 (W2 m ρ c) (Proc.devRef .tc main_arg0) = _
  after_results
  exact W2_arg0 m ρ c
theorem W3_arg5 : W3 m ρ c (Proc.devRef .tc main_arg5) = (m ((c : Thread nD τ).loc main_arg5)) := by
  show StableHlo.after hostOps1 (W2 m ρ c) (Proc.devRef .tc main_arg5) = _
  after_results
  exact W2_arg5 m ρ c
theorem W3_arg6 : W3 m ρ c (Proc.devRef .tc main_arg6) = (m ((c : Thread nD τ).loc main_arg6)) := by
  show StableHlo.after hostOps1 (W2 m ρ c) (Proc.devRef .tc main_arg6) = _
  after_results
  exact W2_arg6 m ρ c
theorem W3_arg7 : W3 m ρ c (Proc.devRef .tc main_arg7) = (m ((c : Thread nD τ).loc main_arg7)) := by
  show StableHlo.after hostOps1 (W2 m ρ c) (Proc.devRef .tc main_arg7) = _
  after_results
  exact W2_arg7 m ρ c
theorem W3_arg8 : W3 m ρ c (Proc.devRef .tc main_arg8) = (m ((c : Thread nD τ).loc main_arg8)) := by
  show StableHlo.after hostOps1 (W2 m ρ c) (Proc.devRef .tc main_arg8) = _
  after_results
  exact W2_arg8 m ρ c
theorem W3_arg13 : W3 m ρ c (Proc.devRef .tc main_arg13) = (m ((c : Thread nD τ).loc main_arg13)) := by
  show StableHlo.after hostOps1 (W2 m ρ c) (Proc.devRef .tc main_arg13) = _
  after_results
  exact W2_arg13 m ρ c
theorem W3_arg14 : W3 m ρ c (Proc.devRef .tc main_arg14) = (m ((c : Thread nD τ).loc main_arg14)) := by
  show StableHlo.after hostOps1 (W2 m ρ c) (Proc.devRef .tc main_arg14) = _
  after_results
  exact W2_arg14 m ρ c
theorem W3_arg15 : W3 m ρ c (Proc.devRef .tc main_arg15) = (m ((c : Thread nD τ).loc main_arg15)) := by
  show StableHlo.after hostOps1 (W2 m ρ c) (Proc.devRef .tc main_arg15) = _
  after_results
  exact W2_arg15 m ρ c
theorem W3_arg16 : W3 m ρ c (Proc.devRef .tc main_arg16) = (m ((c : Thread nD τ).loc main_arg16)) := by
  show StableHlo.after hostOps1 (W2 m ρ c) (Proc.devRef .tc main_arg16) = _
  after_results
  exact W2_arg16 m ρ c
theorem W3_arg17 : W3 m ρ c (Proc.devRef .tc main_arg17) = (m ((c : Thread nD τ).loc main_arg17)) := by
  show StableHlo.after hostOps1 (W2 m ρ c) (Proc.devRef .tc main_arg17) = _
  after_results
  exact W2_arg17 m ρ c
theorem W3_arg18 : W3 m ρ c (Proc.devRef .tc main_arg18) = (m ((c : Thread nD τ).loc main_arg18)) := by
  show StableHlo.after hostOps1 (W2 m ρ c) (Proc.devRef .tc main_arg18) = _
  after_results
  exact W2_arg18 m ρ c
theorem W4_arg0 : W4 m ρ c (Proc.devRef .tc main_arg0) = (m ((c : Thread nD τ).loc main_arg0)) :=
  (W4_of_ne m ρ c main_arg0 (by decide)).trans (W3_arg0 m ρ c)
theorem W4_arg5 : W4 m ρ c (Proc.devRef .tc main_arg5) = (m ((c : Thread nD τ).loc main_arg5)) :=
  (W4_of_ne m ρ c main_arg5 (by decide)).trans (W3_arg5 m ρ c)
theorem W4_arg6 : W4 m ρ c (Proc.devRef .tc main_arg6) = (m ((c : Thread nD τ).loc main_arg6)) :=
  (W4_of_ne m ρ c main_arg6 (by decide)).trans (W3_arg6 m ρ c)
theorem W4_arg7 : W4 m ρ c (Proc.devRef .tc main_arg7) = (m ((c : Thread nD τ).loc main_arg7)) :=
  (W4_of_ne m ρ c main_arg7 (by decide)).trans (W3_arg7 m ρ c)
theorem W4_arg8 : W4 m ρ c (Proc.devRef .tc main_arg8) = (m ((c : Thread nD τ).loc main_arg8)) :=
  (W4_of_ne m ρ c main_arg8 (by decide)).trans (W3_arg8 m ρ c)
theorem W4_arg13 : W4 m ρ c (Proc.devRef .tc main_arg13) = (m ((c : Thread nD τ).loc main_arg13)) :=
  (W4_of_ne m ρ c main_arg13 (by decide)).trans (W3_arg13 m ρ c)
theorem W4_arg14 : W4 m ρ c (Proc.devRef .tc main_arg14) = (m ((c : Thread nD τ).loc main_arg14)) :=
  (W4_of_ne m ρ c main_arg14 (by decide)).trans (W3_arg14 m ρ c)
theorem W4_arg15 : W4 m ρ c (Proc.devRef .tc main_arg15) = (m ((c : Thread nD τ).loc main_arg15)) :=
  (W4_of_ne m ρ c main_arg15 (by decide)).trans (W3_arg15 m ρ c)
theorem W4_arg16 : W4 m ρ c (Proc.devRef .tc main_arg16) = (m ((c : Thread nD τ).loc main_arg16)) :=
  (W4_of_ne m ρ c main_arg16 (by decide)).trans (W3_arg16 m ρ c)
theorem W4_arg17 : W4 m ρ c (Proc.devRef .tc main_arg17) = (m ((c : Thread nD τ).loc main_arg17)) :=
  (W4_of_ne m ρ c main_arg17 (by decide)).trans (W3_arg17 m ρ c)
theorem W4_arg18 : W4 m ρ c (Proc.devRef .tc main_arg18) = (m ((c : Thread nD τ).loc main_arg18)) :=
  (W4_of_ne m ρ c main_arg18 (by decide)).trans (W3_arg18 m ρ c)
theorem W5_arg0 : W5 m ρ c (Proc.devRef .tc main_arg0) = (m ((c : Thread nD τ).loc main_arg0)) := by
  show StableHlo.after hostOps2 (W4 m ρ c) (Proc.devRef .tc main_arg0) = _
  after_results
  exact W4_arg0 m ρ c
theorem W5_arg5 : W5 m ρ c (Proc.devRef .tc main_arg5) = (m ((c : Thread nD τ).loc main_arg5)) := by
  show StableHlo.after hostOps2 (W4 m ρ c) (Proc.devRef .tc main_arg5) = _
  after_results
  exact W4_arg5 m ρ c
theorem W5_arg6 : W5 m ρ c (Proc.devRef .tc main_arg6) = (m ((c : Thread nD τ).loc main_arg6)) := by
  show StableHlo.after hostOps2 (W4 m ρ c) (Proc.devRef .tc main_arg6) = _
  after_results
  exact W4_arg6 m ρ c
theorem W5_arg7 : W5 m ρ c (Proc.devRef .tc main_arg7) = (m ((c : Thread nD τ).loc main_arg7)) := by
  show StableHlo.after hostOps2 (W4 m ρ c) (Proc.devRef .tc main_arg7) = _
  after_results
  exact W4_arg7 m ρ c
theorem W5_arg8 : W5 m ρ c (Proc.devRef .tc main_arg8) = (m ((c : Thread nD τ).loc main_arg8)) := by
  show StableHlo.after hostOps2 (W4 m ρ c) (Proc.devRef .tc main_arg8) = _
  after_results
  exact W4_arg8 m ρ c
theorem W5_arg13 : W5 m ρ c (Proc.devRef .tc main_arg13) = (m ((c : Thread nD τ).loc main_arg13)) := by
  show StableHlo.after hostOps2 (W4 m ρ c) (Proc.devRef .tc main_arg13) = _
  after_results
  exact W4_arg13 m ρ c
theorem W5_arg14 : W5 m ρ c (Proc.devRef .tc main_arg14) = (m ((c : Thread nD τ).loc main_arg14)) := by
  show StableHlo.after hostOps2 (W4 m ρ c) (Proc.devRef .tc main_arg14) = _
  after_results
  exact W4_arg14 m ρ c
theorem W5_arg15 : W5 m ρ c (Proc.devRef .tc main_arg15) = (m ((c : Thread nD τ).loc main_arg15)) := by
  show StableHlo.after hostOps2 (W4 m ρ c) (Proc.devRef .tc main_arg15) = _
  after_results
  exact W4_arg15 m ρ c
theorem W5_arg16 : W5 m ρ c (Proc.devRef .tc main_arg16) = (m ((c : Thread nD τ).loc main_arg16)) := by
  show StableHlo.after hostOps2 (W4 m ρ c) (Proc.devRef .tc main_arg16) = _
  after_results
  exact W4_arg16 m ρ c
theorem W5_arg17 : W5 m ρ c (Proc.devRef .tc main_arg17) = (m ((c : Thread nD τ).loc main_arg17)) := by
  show StableHlo.after hostOps2 (W4 m ρ c) (Proc.devRef .tc main_arg17) = _
  after_results
  exact W4_arg17 m ρ c
theorem W5_arg18 : W5 m ρ c (Proc.devRef .tc main_arg18) = (m ((c : Thread nD τ).loc main_arg18)) := by
  show StableHlo.after hostOps2 (W4 m ρ c) (Proc.devRef .tc main_arg18) = _
  after_results
  exact W4_arg18 m ρ c

/-! ## Region 0: the passenger encoder -/

theorem W1_v0 (j : Fin 16) : W1 m ρ c (Proc.devRef .tc main_v0) (ix2 (0 : Fin 1) j) = (m ((c : Thread nD τ).loc main_arg12)) (ix1 j) := by
  have e : W1 m ρ c (Proc.devRef .tc main_v0) = shapeCast S1x16 (m ((c : Thread nD τ).loc main_arg12)) shapeCasts_S16_S1x16 := by
    show StableHlo.after hostOps0 (W0 m ρ c) (Proc.devRef .tc main_v0) = _
    after_results
    rfl
  rw [e]
  exact shapeCast_a_1a_apply _ _ 0 j

/-- The passenger encoder's output array is the host's stage. -/
theorem W2_v1 : W2 m ρ c (Proc.devRef .tc main_v1) = Cert.ReferenceIdeal.Read.val_main_v14 (F := Ideal) (m ((c : Thread nD τ).loc main_arg2)) (m ((c : Thread nD τ).loc main_arg11)) (m ((c : Thread nD τ).loc main_arg12)) :=
  (W2_arr m ρ c 3).trans (Encoder.final (V1 m ρ) c _ _ _ (W1_arg2 m ρ c) (W1_arg11 m ρ c) (W1_v0 m ρ c))

/-! ## The first stretch: passenger features gathered along the edges and mean-pooled onto the vehicles -/

set_option maxHeartbeats 8000000 in
/-- The pooled array the second region reads is the host's: the same operations on the same operands. -/
theorem W3_v19 : W3 m ρ c (Proc.devRef .tc main_v19) = Cert.ReferenceIdeal.Read.val_main_v32 (F := Ideal) (m ((c : Thread nD τ).loc main_arg2)) (m ((c : Thread nD τ).loc main_arg3)) (m ((c : Thread nD τ).loc main_arg4)) (m ((c : Thread nD τ).loc main_arg11)) (m ((c : Thread nD τ).loc main_arg12)) := by
  show StableHlo.after hostOps1 (W2 m ρ c) (Proc.devRef .tc main_v19) = _
  after_results_simp
  rw [W2_v1, W2_arg3, W2_arg4]
  unfold Cert.ReferenceIdeal.Read.val_main_v32 Cert.ReferenceIdeal.Read.val_main_v31 Cert.ReferenceIdeal.Read.val_main_v30 Cert.ReferenceIdeal.Read.val_main_v29 Cert.ReferenceIdeal.Read.val_main_cst_3 Cert.ReferenceIdeal.Read.val_main_v28 Cert.ReferenceIdeal.Read.val_main_v27 Cert.ReferenceIdeal.Read.val_main_v26 Cert.ReferenceIdeal.Read.val_main_cst_2 Cert.ReferenceIdeal.Read.val_main_v25 Cert.ReferenceIdeal.Read.val_main_cst_1 Cert.ReferenceIdeal.Read.val_main_v24 Cert.ReferenceIdeal.Read.val_main_v23 Cert.ReferenceIdeal.Read.val_main_v22 Cert.ReferenceIdeal.Read.val_main_cst Cert.ReferenceIdeal.Read.val_main_v21 Cert.ReferenceIdeal.Read.val_main_v20 Cert.ReferenceIdeal.Read.val_main_v19 Cert.ReferenceIdeal.Read.val_main_v18 Cert.ReferenceIdeal.Read.val_main_v17 Cert.ReferenceIdeal.Read.val_main_c_0 Cert.ReferenceIdeal.Read.val_main_v16 Cert.ReferenceIdeal.Read.val_main_v15 Cert.ReferenceIdeal.Read.val_main_c
  rfl

theorem W3_v20 (j : Fin 16) : W3 m ρ c (Proc.devRef .tc main_v20) (ix2 (0 : Fin 1) j) = (m ((c : Thread nD τ).loc main_arg10)) (ix1 j) := by
  have e : W3 m ρ c (Proc.devRef .tc main_v20) = shapeCast S1x16 (m ((c : Thread nD τ).loc main_arg10)) shapeCasts_S16_S1x16 := by
    show StableHlo.after hostOps1 (W2 m ρ c) (Proc.devRef .tc main_v20) = _
    after_results
    rw [W2_arg10]
    rfl
  rw [e]
  exact shapeCast_a_1a_apply _ _ 0 j

/-! ## Region 1: the vehicle encoder joined with the pooled passenger features -/

theorem W4_v21 : W4 m ρ c (Proc.devRef .tc main_v21) = Cert.ReferenceIdeal.Read.val_main_v33 (F := Ideal) (m ((c : Thread nD τ).loc main_arg1)) (m ((c : Thread nD τ).loc main_arg2)) (m ((c : Thread nD τ).loc main_arg3)) (m ((c : Thread nD τ).loc main_arg4)) (m ((c : Thread nD τ).loc main_arg9)) (m ((c : Thread nD τ).loc main_arg10)) (m ((c : Thread nD τ).loc main_arg11)) (m ((c : Thread nD τ).loc main_arg12)) :=
  (W4_arr m ρ c 4).trans (VehicleJoin.final (V3 m ρ) c _ _ _ _ _ _ _ _ (W3_arg1 m ρ c) (W3_v19 m ρ c) (W3_arg9 m ρ c) (W3_v20 m ρ c))

/-! ## The second stretch: vehicle features gathered along the edges and mean-pooled onto the requests -/

set_option maxHeartbeats 8000000 in
/-- The pooled array the third region reads is the host's: the same operations on the same operands. -/
theorem W5_v39 : W5 m ρ c (Proc.devRef .tc main_v39) = Cert.ReferenceIdeal.Read.val_main_v51 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) := by
  show StableHlo.after hostOps2 (W4 m ρ c) (Proc.devRef .tc main_v39) = _
  after_results_simp
  rw [W4_v21, W4_arg5, W4_arg6]
  unfold Cert.ReferenceIdeal.Read.val_main_v51 Cert.ReferenceIdeal.Read.val_main_v50 Cert.ReferenceIdeal.Read.val_main_v49 Cert.ReferenceIdeal.Read.val_main_v48 Cert.ReferenceIdeal.Read.val_main_cst_9 Cert.ReferenceIdeal.Read.val_main_v47 Cert.ReferenceIdeal.Read.val_main_v46 Cert.ReferenceIdeal.Read.val_main_v45 Cert.ReferenceIdeal.Read.val_main_cst_8 Cert.ReferenceIdeal.Read.val_main_v44 Cert.ReferenceIdeal.Read.val_main_cst_7 Cert.ReferenceIdeal.Read.val_main_v43 Cert.ReferenceIdeal.Read.val_main_v42 Cert.ReferenceIdeal.Read.val_main_v41 Cert.ReferenceIdeal.Read.val_main_cst_6 Cert.ReferenceIdeal.Read.val_main_v40 Cert.ReferenceIdeal.Read.val_main_v39 Cert.ReferenceIdeal.Read.val_main_v38 Cert.ReferenceIdeal.Read.val_main_v37 Cert.ReferenceIdeal.Read.val_main_v36 Cert.ReferenceIdeal.Read.val_main_c_5 Cert.ReferenceIdeal.Read.val_main_v35 Cert.ReferenceIdeal.Read.val_main_v34 Cert.ReferenceIdeal.Read.val_main_c_4
  rfl

theorem W5_v40 (j : Fin 16) : W5 m ρ c (Proc.devRef .tc main_v40) (ix2 (0 : Fin 1) j) = (m ((c : Thread nD τ).loc main_arg8)) (ix1 j) := by
  have e : W5 m ρ c (Proc.devRef .tc main_v40) = shapeCast S1x16 (m ((c : Thread nD τ).loc main_arg8)) shapeCasts_S16_S1x16 := by
    show StableHlo.after hostOps2 (W4 m ρ c) (Proc.devRef .tc main_v40) = _
    after_results
    rw [W4_arg8]
    rfl
  rw [e]
  exact shapeCast_a_1a_apply _ _ 0 j
theorem W5_v41 (j : Fin 64) : W5 m ρ c (Proc.devRef .tc main_v41) (ix2 (0 : Fin 1) j) = (m ((c : Thread nD τ).loc main_arg14)) (ix1 j) := by
  have e : W5 m ρ c (Proc.devRef .tc main_v41) = shapeCast S1x64 (m ((c : Thread nD τ).loc main_arg14)) shapeCasts_S64_S1x64 := by
    show StableHlo.after hostOps2 (W4 m ρ c) (Proc.devRef .tc main_v41) = _
    after_results
    rw [W4_arg14]
    rfl
  rw [e]
  exact shapeCast_a_1a_apply _ _ 0 j
theorem W5_v42 (j : Fin 64) : W5 m ρ c (Proc.devRef .tc main_v42) (ix2 (0 : Fin 1) j) = (m ((c : Thread nD τ).loc main_arg16)) (ix1 j) := by
  have e : W5 m ρ c (Proc.devRef .tc main_v42) = shapeCast S1x64 (m ((c : Thread nD τ).loc main_arg16)) shapeCasts_S64_S1x64 := by
    show StableHlo.after hostOps2 (W4 m ρ c) (Proc.devRef .tc main_v42) = _
    after_results
    rw [W4_arg16]
    rfl
  rw [e]
  exact shapeCast_a_1a_apply _ _ 0 j
theorem W5_v43 (j : Fin 1) : W5 m ρ c (Proc.devRef .tc main_v43) (ix2 (0 : Fin 1) j) = (m ((c : Thread nD τ).loc main_arg18)) (ix1 j) := by
  have e : W5 m ρ c (Proc.devRef .tc main_v43) = shapeCast S1x1 (m ((c : Thread nD τ).loc main_arg18)) shapeCasts_S1_S1x1 := by
    show StableHlo.after hostOps2 (W4 m ρ c) (Proc.devRef .tc main_v43) = _
    after_results
    rw [W4_arg18]
    rfl
  rw [e]
  exact shapeCast_a_1a_apply _ _ 0 j

/-! ## Region 2: the fused actor, and the result -/

/-- THE RESULT ARRAY at the last boundary is the reference's last stage of the argument arrays. -/
theorem W6_v44 : W6 m ρ c (Proc.devRef .tc main_v44) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (W6_arr m ρ c 10).trans (Actor.final (V5 m ρ) c _ _ _ _ _ _ _ _ _ _ _ _ _ _ _ _ _ _ _
    (W5_arg0 m ρ c) (W5_v39 m ρ c) (W5_arg7 m ρ c) (W5_arg13 m ρ c) (W5_arg15 m ρ c) (W5_arg17 m ρ c)
    (W5_v40 m ρ c) (W5_v41 m ρ c) (W5_v42 m ρ c) (W5_v43 m ρ c))

end Cert.KernelIdeal.Result

end
-- ==== Proof.lean ====
/-
  The proof of `Cert.Claim`: the three frames, `preserves` and `algebraic` of a graph actor — three encoders
  `tanh (x · W + b)`, two mean-poolings along edge lists, and a three-layer perceptron on the joined features —
  whose kernel runs three tiled regions among two stretches of host operations, against a host reference.

  The frames of the two kernel programs are the generated ones; the reference has no kernel, and its frame is its
  generated run with the result dropped. The ideal pass rewrote nothing, so `preserves` is `True`. For `algebraic`,
  both runs end with the result array at ONE function of the argument arrays, the reference's last stage: the
  reference's by its generated run, the kernel's because every region's tiles cover its output with the rows of the
  host's stage (Encoder, VehicleJoin, Actor) and the host operations between the regions are the reference's own
  (Result). On the extended reals nothing more is needed than that the same products are summed in the same order:
  no law that could fail at an infinity is used, and the precondition is never opened.
-/
import proofs.«144995_j46454366273712_2_alg».proof.Defs
import proofs.«144995_j46454366273712_2_alg».proof.Proof.Gen.Kernel
import proofs.«144995_j46454366273712_2_alg».proof.Proof.Gen.Kernel.Frame
import proofs.«144995_j46454366273712_2_alg».proof.Proof.Gen.KernelIdeal
import proofs.«144995_j46454366273712_2_alg».proof.Proof.Gen.KernelIdeal.Frame
import proofs.«144995_j46454366273712_2_alg».proof.Proof.Gen.ReferenceIdeal
import proofs.«144995_j46454366273712_2_alg».proof.Proof.Gen.Pre_finite_inputs
import proofs.«144995_j46454366273712_2_alg».proof.Proof.Gen.ReferenceIdeal.Run
import proofs.«144995_j46454366273712_2_alg».proof.Proof.Gen.ReferenceIdeal.Read
import proofs.«144995_j46454366273712_2_alg».proof.Proof.KernelRun
import proofs.«144995_j46454366273712_2_alg».proof.Proof.Result
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section
open Cert.KernelIdeal Cert.KernelIdeal.Gen

/-- The idealized kernel's run with the result array named and the arguments kept. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
      ⟨h c _ (mem_uc main_v44 (by decide)),
        (h c _ (mem_uc main_arg0 (by decide))).trans (W6_main_arg0 m ρ c),
        (h c _ (mem_uc main_arg1 (by decide))).trans (W6_main_arg1 m ρ c),
        (h c _ (mem_uc main_arg2 (by decide))).trans (W6_main_arg2 m ρ c),
        (h c _ (mem_uc main_arg3 (by decide))).trans (W6_main_arg3 m ρ c),
        (h c _ (mem_uc main_arg4 (by decide))).trans (W6_main_arg4 m ρ c),
        (h c _ (mem_uc main_arg5 (by decide))).trans (W6_main_arg5 m ρ c),
        (h c _ (mem_uc main_arg6 (by decide))).trans (W6_main_arg6 m ρ c),
        (h c _ (mem_uc main_arg7 (by decide))).trans (W6_main_arg7 m ρ c),
        (h c _ (mem_uc main_arg8 (by decide))).trans (W6_main_arg8 m ρ c),
        (h c _ (mem_uc main_arg9 (by decide))).trans (W6_main_arg9 m ρ c),
        (h c _ (mem_uc main_arg10 (by decide))).trans (W6_main_arg10 m ρ c),
        (h c _ (mem_uc main_arg11 (by decide))).trans (W6_main_arg11 m ρ c),
        (h c _ (mem_uc main_arg12 (by decide))).trans (W6_main_arg12 m ρ c),
        (h c _ (mem_uc main_arg13 (by decide))).trans (W6_main_arg13 m ρ c),
        (h c _ (mem_uc main_arg14 (by decide))).trans (W6_main_arg14 m ρ c),
        (h c _ (mem_uc main_arg15 (by decide))).trans (W6_main_arg15 m ρ c),
        (h c _ (mem_uc main_arg16 (by decide))).trans (W6_main_arg16 m ρ c),
        (h c _ (mem_uc main_arg17 (by decide))).trans (W6_main_arg17 m ρ c),
        (h c _ (mem_uc main_arg18 (by decide))).trans (W6_main_arg18 m ρ c)⟩)
    (Cert.KernelIdeal.RunValue.run_all m ρ)

end

/-- From memories agreeing on the arguments both runs end with the result array at the reference's last stage of
    the arguments. -/
theorem algebraic : Cert.algebraic_KernelIdeal_ReferenceIdeal := by
  intro m ρ m' ρ' _ hagree
  refine ⟨fun c => Cert.KernelIdeal.Gen.W6 m ρ c (Proc.devRef .tc Cert.KernelIdeal.main_v44), kernel_run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18⟩ := hagree c
  rw [Cert.ReferenceIdeal.Read.val_main_v66_eq, e0, e1, e2, e3, e4, e5, e6, e7, e8, e9, e10, e11, e12, e13, e14, e15, e16, e17, e18]
  exact (Cert.KernelIdeal.Result.W6_v44 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
